-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S48x256 : Shape := ⟨2, ![48, 256]⟩
abbrev S48 : Shape := ⟨1, ![48]⟩
abbrev S128x48 : Shape := ⟨2, ![128, 48]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S48x256 : S_.BroadcastsInDim S48x256 (![] : Fin 0 → Fin S48x256.rank)
  reducesTo_S48x256_S_d0_1 : S48x256.ReducesTo [0, 1] S_
  bcast_S_S48 : S_.BroadcastsInDim S48 (![] : Fin 0 → Fin S48.rank)
  reducesTo_S48_S_d0 : S48.ReducesTo [0] S_
  bcast_S_S128x48 : S_.BroadcastsInDim S128x48 (![] : Fin 0 → Fin S128x48.rank)
  reducesTo_S128x48_S_d0_1 : S128x48.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x48 .f32) (main_arg9 : FVec F S128x48 .f32) (main_arg10 : FVec F S128 .f32) (main_v33 : IVec S_ 1) : IVec S_ 1 :=
  let main_v34 : FVec F S128x48 .f32 := Host.absf main_arg8
  let main_cst_12 : FVec F S_ .f32 := constant S_ .f32 0x7F800000#32
  let main_v35 : FVec F S128x48 .f32 := broadcastInDim S128x48 ![] bcast_S_S128x48 main_cst_12
  let main_v36 : IVec S128x48 1 := cmpf .olt main_v34 main_v35
  let main_c_13 : IVec S_ 1 := constantI S_ 1 1#1
  let main_v37 : IVec S_ 1 := (fun x v => Host.reduce IntOp.andi x v reducesTo_S128x48_S_d0_1 h_S_) main_v36 main_c_13
  let main_v38 : IVec S_ 1 := andi main_v33 main_v37
  let main_v39 : FVec F S128x48 .f32 := Host.absf main_arg9
  let main_cst_14 : FVec F S_ .f32 := constant S_ .f32 0x7F800000#32
  let main_v40 : FVec F S128x48 .f32 := broadcastInDim S128x48 ![] bcast_S_S128x48 main_cst_14
  let main_v41 : IVec S128x48 1 := cmpf .olt main_v39 main_v40
  let main_c_15 : IVec S_ 1 := constantI S_ 1 1#1
  let main_v42 : IVec S_ 1 := (fun x v => Host.reduce IntOp.andi x v reducesTo_S128x48_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S48x256 .f32) (main_arg6 : FVec F S48x256 .f32) (main_arg7 : FVec F S48 .f32) (main_arg8 : FVec F S128x48 .f32) (main_arg9 : FVec F S128x48 .f32) (main_arg10 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S48x256 .f32 := Host.absf main_arg5
  let main_cst_6 : FVec F S_ .f32 := constant S_ .f32 0x7F800000#32
  let main_v20 : FVec F S48x256 .f32 := broadcastInDim S48x256 ![] bcast_S_S48x256 main_cst_6
  let main_v21 : IVec S48x256 1 := cmpf .olt main_v19 main_v20
  let main_c_7 : IVec S_ 1 := constantI S_ 1 1#1
  let main_v22 : IVec S_ 1 := (fun x v => Host.reduce IntOp.andi x v reducesTo_S48x256_S_d0_1 h_S_) main_v21 main_c_7
  let main_v23 : IVec S_ 1 := andi main_v18 main_v22
  let main_v24 : FVec F S48x256 .f32 := Host.absf main_arg6
  let main_cst_8 : FVec F S_ .f32 := constant S_ .f32 0x7F800000#32
  let main_v25 : FVec F S48x256 .f32 := broadcastInDim S48x256 ![] bcast_S_S48x256 main_cst_8
  let main_v26 : IVec S48x256 1 := cmpf .olt main_v24 main_v25
  let main_c_9 : IVec S_ 1 := constantI S_ 1 1#1
  let main_v27 : IVec S_ 1 := (fun x v => Host.reduce IntOp.andi x v reducesTo_S48x256_S_d0_1 h_S_) main_v26 main_c_9
  let main_v28 : IVec S_ 1 := andi main_v23 main_v27
  let main_v29 : FVec F S48 .f32 := Host.absf main_arg7
  let main_cst_10 : FVec F S_ .f32 := constant S_ .f32 0x7F800000#32
  let main_v30 : FVec F S48 .f32 := broadcastInDim S48 ![] bcast_S_S48 main_cst_10
  let main_v31 : IVec S48 1 := cmpf .olt main_v29 main_v30
  let main_c_11 : IVec S_ 1 := constantI S_ 1 1#1
  let main_v32 : IVec S_ 1 := (fun x v => Host.reduce IntOp.andi x v reducesTo_S48_S_d0 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S256x128 .f32) (main_arg3 : FVec F S256x128 .f32) (main_arg4 : FVec F S256 .f32) (main_arg5 : FVec F S48x256 .f32) (main_arg6 : FVec F S48x256 .f32) (main_arg7 : FVec F S48 .f32) (main_arg8 : FVec F S128x48 .f32) (main_arg9 : FVec F S128x48 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S48x256 : Shape := ⟨2, ![48, 256]⟩
abbrev S48 : Shape := ⟨1, ![48]⟩
abbrev S128x48 : Shape := ⟨2, ![128, 48]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S128x256 : Shape := ⟨2, ![128, 256]⟩
abbrev S1x256 : Shape := ⟨2, ![1, 256]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S800000x256 : Shape := ⟨2, ![800000, 256]⟩
abbrev S256x48 : Shape := ⟨2, ![256, 48]⟩
abbrev S1x48 : Shape := ⟨2, ![1, 48]⟩
abbrev S50000x48 : Shape := ⟨2, ![50000, 48]⟩
abbrev S2000x48 : Shape := ⟨2, ![2000, 48]⟩
abbrev S800000x48 : Shape := ⟨2, ![800000, 48]⟩
abbrev S48x128 : Shape := ⟨2, ![48, 128]⟩
abbrev S1x128 : Shape := ⟨2, ![1, 128]⟩

abbrev nBuf : Space → Nat
  | .hbm => 81
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256x128, .f32⟩
  | .hbm, ⟨4, _⟩ => ⟨S256, .f32⟩
  | .hbm, ⟨5, _⟩ => ⟨S48x256, .f32⟩
  | .hbm, ⟨6, _⟩ => ⟨S48x256, .f32⟩
  | .hbm, ⟨7, _⟩ => ⟨S48, .f32⟩
  | .hbm, ⟨8, _⟩ => ⟨S128x48, .f32⟩
  | .hbm, ⟨9, _⟩ => ⟨S128x48, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S128x256, .f32⟩
  | .hbm, ⟨42, _⟩ => ⟨S128x256, .f32⟩
  | .hbm, ⟨43, _⟩ => ⟨S1x256, .f32⟩
  | .hbm, ⟨44, _⟩ => ⟨S50000x256, .bf16⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x256, .bf16⟩
  | .hbm, ⟨54, _⟩ => ⟨S800000x256, .f32⟩
  | .hbm, ⟨55, _⟩ => ⟨S_, .f32⟩
  | .hbm, ⟨56, _⟩ => ⟨S50000x256, .f32⟩
  | .hbm, ⟨57, _⟩ => ⟨S800000x1, .i32⟩
  | .hbm, ⟨58, _⟩ => ⟨S50000x256, .f32⟩
  | .hbm, ⟨59, _⟩ => ⟨S256x48, .f32⟩
  | .hbm, ⟨60, _⟩ => ⟨S256x48, .f32⟩
  | .hbm, ⟨61, _⟩ => ⟨S1x48, .f32⟩
  | .hbm, ⟨62, _⟩ => ⟨S50000x48, .bf16⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x48, .bf16⟩
  | .hbm, ⟨72, _⟩ => ⟨S800000x48, .f32⟩
  | .hbm, ⟨73, _⟩ => ⟨S_, .f32⟩
  | .hbm, ⟨74, _⟩ => ⟨S50000x48, .f32⟩
  | .hbm, ⟨75, _⟩ => ⟨S800000x1, .i32⟩
  | .hbm, ⟨76, _⟩ => ⟨S50000x48, .f32⟩
  | .hbm, ⟨77, _⟩ => ⟨S48x128, .f32⟩
  | .hbm, ⟨78, _⟩ => ⟨S48x128, .f32⟩
  | .hbm, ⟨79, _⟩ => ⟨S1x128, .f32⟩
  | .hbm, ⟨80, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x256, .f32⟩
  | .local _ .vmem, ⟨7, _⟩ => ⟨S128x256, .f32⟩
  | .local _ .vmem, ⟨8, _⟩ => ⟨S1x256, .f32⟩
  | .local _ .vmem, ⟨9, _⟩ => ⟨S2000x256, .bf16⟩
  | .local _ .vmem, ⟨10, _⟩ => ⟨S2000x256, .bf16⟩
  | .local _ .vmem, ⟨11, _⟩ => ⟨S2000x256, .f32⟩
  | .local _ .vmem, ⟨12, _⟩ => ⟨S2000x256, .f32⟩
  | .local _ .vmem, ⟨13, _⟩ => ⟨S2000x256, .bf16⟩
  | .local _ .vmem, ⟨14, _⟩ => ⟨S2000x256, .bf16⟩
  | .local _ .vmem, ⟨15, _⟩ => ⟨S2000x1, .f32⟩
  | .local _ .vmem, ⟨16, _⟩ => ⟨S2000x1, .f32⟩
  | .local _ .vmem, ⟨17, _⟩ => ⟨S256x48, .f32⟩
  | .local _ .vmem, ⟨18, _⟩ => ⟨S256x48, .f32⟩
  | .local _ .vmem, ⟨19, _⟩ => ⟨S1x48, .f32⟩
  | .local _ .vmem, ⟨20, _⟩ => ⟨S2000x48, .bf16⟩
  | .local _ .vmem, ⟨21, _⟩ => ⟨S2000x48, .bf16⟩
  | .local _ .vmem, ⟨22, _⟩ => ⟨S2000x48, .f32⟩
  | .local _ .vmem, ⟨23, _⟩ => ⟨S2000x48, .f32⟩
  | .local _ .vmem, ⟨24, _⟩ => ⟨S2000x48, .bf16⟩
  | .local _ .vmem, ⟨25, _⟩ => ⟨S2000x48, .bf16⟩
  | .local _ .vmem, ⟨26, _⟩ => ⟨S2000x1, .f32⟩
  | .local _ .vmem, ⟨27, _⟩ => ⟨S2000x1, .f32⟩
  | .local _ .vmem, ⟨28, _⟩ => ⟨S48x128, .f32⟩
  | .local _ .vmem, ⟨29, _⟩ => ⟨S48x128, .f32⟩
  | .local _ .vmem, ⟨30, _⟩ => ⟨S1x128, .f32⟩
  | .local _ .vmem, ⟨31, _⟩ => ⟨S2000x128, .f32⟩
  | .local _ .vmem, ⟨32, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x48 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x48 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x48 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x48 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x48 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x48 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S48x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S48x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  transposes_S256x128_S128x256_1_0 : S256x128.Transposes [1, 0] S128x256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  transposes_S48x256_S256x48_1_0 : S48x256.Transposes [1, 0] S256x48
  shapeCasts_S48_S1x48 : S48.ShapeCasts S1x48
  shapeCasts_S2000x256_S2000x256 : S2000x256.ShapeCasts S2000x256
  broadcasts_S2000x1_S2000x256 : S2000x1.Broadcasts S2000x256
  inb_S256x48_S256x48_0_0 : ∀ a, (![0, 0] : Fin 2 → Nat) a + S256x48.size a ≤ S256x48.size a
  h_S256x48 : 0 < S256x48.numel
  shapeCasts_S256x48_S256x48 : S256x48.ShapeCasts S256x48
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S2000x48 : S1x48.Broadcasts S2000x48
  inb_S2000x48_S2000x48_0_0 : ∀ a, (![0, 0] : Fin 2 → Nat) a + S2000x48.size a ≤ S2000x48.size a
  h_S2000x48 : 0 < S2000x48.numel
  packedbf16_S2000x48_S2000x48_0_0 : (Rect.unit (s := S2000x48) ![0, 0] S2000x48.size inb_S2000x48_S2000x48_0_0).PackedRows (EltTy.packing .bf16)
  bcast_S_S50000x48 : S_.BroadcastsInDim S50000x48 (![] : Fin 0 → Fin S50000x48.rank)
  transposes_S128x48_S48x128_1_0 : S128x48.Transposes [1, 0] S48x128
  shapeCasts_S128_S1x128 : S128.ShapeCasts S1x128
  shapeCasts_S2000x48_S2000x48 : S2000x48.ShapeCasts S2000x48
  broadcasts_S2000x1_S2000x48 : S2000x1.Broadcasts S2000x48
  inb_S48x128_S48x128_0_0 : ∀ a, (![0, 0] : Fin 2 → Nat) a + S48x128.size a ≤ S48x128.size a
  h_S48x128 : 0 < S48x128.numel
  shapeCasts_S48x128_S48x128 : S48x128.ShapeCasts S48x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x48_S2000x48_1_0_0_1_n_n_wf : DotDims.WF S2000x256 S256x48 S2000x48 [1] [0] [0] [1] [] []
  gather_S50000x48_S800000x1_S800000x48_1_0_n_n_0_1_148_wf : GatherDims.WF S50000x48 S800000x1 S800000x48 [1] [0] [] [0] [] 1 ![1, 48]
  scatter_S50000x48_S800000x1_S800000x48_1_0_0_1_wf : ScatterDims.WF S50000x48 S800000x1 S800000x48 [1] [0] [0] 1
  dot_S2000x48_S48x128_S2000x128_1_0_0_1_n_n_wf : DotDims.WF S2000x48 S48x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .bf16 = 32 ∨ (Rect.block (s := S50000x256) S2000x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .bf16 = 32 ∨ (Rect.block (s := S50000x256) S2000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x48.size a ≤ S256x48.size a
  hwx1_3 : ∀ i : grid1.Coords, EltTy.bits .f32 = 32 ∨ (Rect.block (s := S256x48) S256x48.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x48.size a ≤ S256x48.size a
  hwx1_4 : ∀ i : grid1.Coords, EltTy.bits .f32 = 32 ∨ (Rect.block (s := S256x48) S256x48.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x48.size a ≤ S1x48.size a
  hwx1_5 : ∀ i : grid1.Coords, EltTy.bits .f32 = 32 ∨ (Rect.block (s := S1x48) S1x48.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x48.size a ≤ S50000x48.size a
  hwx1_6 : ∀ i : grid1.Coords, EltTy.bits .bf16 = 32 ∨ (Rect.block (s := S50000x48) S2000x48.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x48.size a ≤ S50000x48.size a
  hwx2_0 : ∀ i : grid2.Coords, EltTy.bits .f32 = 32 ∨ (Rect.block (s := S50000x48) S2000x48.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x48.size a ≤ S50000x48.size a
  hwx2_1 : ∀ i : grid2.Coords, EltTy.bits .bf16 = 32 ∨ (Rect.block (s := S50000x48) S2000x48.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S48x128.size a ≤ S48x128.size a
  hwx2_3 : ∀ i : grid2.Coords, EltTy.bits .f32 = 32 ∨ (Rect.block (s := S48x128) S48x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S48x128.size a ≤ S48x128.size a
  hwx2_4 : ∀ i : grid2.Coords, EltTy.bits .f32 = 32 ∨ (Rect.block (s := S48x128) S48x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x48_S2000x48_1_0_0_1_n_n : DotDims S2000x256 S256x48 S2000x48 where
  lhsContracting := [1]
  rhsContracting := [0]
  lhsNonContracting := [0]
  rhsNonContracting := [1]
  lhsBatch := []
  rhsBatch := []
  wf := dot_S2000x256_S256x48_S2000x48_1_0_0_1_n_n_wf
def gather_S50000x48_S800000x1_S800000x48_1_0_n_n_0_1_148 : GatherDims S50000x48 S800000x1 S800000x48 where
  offsetDims := [1]
  collapsedSliceDims := [0]
  operandBatchingDims := []
  startIndicesBatchingDims := []
  startIndexMap := [0]
  indexVectorDim := 1
  sliceSizes := ![1, 48]
  wf := gather_S50000x48_S800000x1_S800000x48_1_0_n_n_0_1_148_wf
def scatter_S50000x48_S800000x1_S800000x48_1_0_0_1 : ScatterDims S50000x48 S800000x1 S800000x48 where
  updateWindowDims := [1]
  insertedWindowDims := [0]
  scatterDimsToOperandDims := [0]
  indexVectorDim := 1
  wf := scatter_S50000x48_S800000x1_S800000x48_1_0_0_1_wf
def dot_S2000x48_S48x128_S2000x128_1_0_0_1_n_n : DotDims S2000x48 S48x128 S2000x128 where
  lhsContracting := [1]
  rhsContracting := [0]
  lhsNonContracting := [0]
  rhsNonContracting := [1]
  lhsBatch := []
  rhsBatch := []
  wf := dot_S2000x48_S48x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v37) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S256x48.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S256x48.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S1x48.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S2000x48.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v52) S2000x48.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S2000x48.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v53) S48x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S48x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v56) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S48x256 : Shape := ⟨2, ![48, 256]⟩
abbrev S48 : Shape := ⟨1, ![48]⟩
abbrev S128x48 : Shape := ⟨2, ![128, 48]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x256 : Shape := ⟨2, ![128, 256]⟩
abbrev S50000x256 : Shape := ⟨2, ![50000, 256]⟩
abbrev S1x256 : Shape := ⟨2, ![1, 256]⟩
abbrev S800000x256 : Shape := ⟨2, ![800000, 256]⟩
abbrev S256x48 : Shape := ⟨2, ![256, 48]⟩
abbrev S50000x48 : Shape := ⟨2, ![50000, 48]⟩
abbrev S1x48 : Shape := ⟨2, ![1, 48]⟩
abbrev S800000x48 : Shape := ⟨2, ![800000, 48]⟩
abbrev S48x128 : Shape := ⟨2, ![48, 128]⟩
abbrev S1x128 : Shape := ⟨2, ![1, 128]⟩

abbrev nBuf : Space → Nat
  | .hbm => 120
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256x128, .f32⟩
  | .hbm, ⟨4, _⟩ => ⟨S256, .f32⟩
  | .hbm, ⟨5, _⟩ => ⟨S48x256, .f32⟩
  | .hbm, ⟨6, _⟩ => ⟨S48x256, .f32⟩
  | .hbm, ⟨7, _⟩ => ⟨S48, .f32⟩
  | .hbm, ⟨8, _⟩ => ⟨S128x48, .f32⟩
  | .hbm, ⟨9, _⟩ => ⟨S128x48, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S128x256, .f32⟩
  | .hbm, ⟨41, _⟩ => ⟨S50000x256, .f32⟩
  | .hbm, ⟨42, _⟩ => ⟨S128x256, .f32⟩
  | .hbm, ⟨43, _⟩ => ⟨S50000x256, .f32⟩
  | .hbm, ⟨44, _⟩ => ⟨S50000x256, .f32⟩
  | .hbm, ⟨45, _⟩ => ⟨S1x256, .f32⟩
  | .hbm, ⟨46, _⟩ => ⟨S50000x256, .f32⟩
  | .hbm, ⟨47, _⟩ => ⟨S50000x256, .f32⟩
  | .hbm, ⟨48, _⟩ => ⟨S_, .f32⟩
  | .hbm, ⟨49, _⟩ => ⟨S50000x256, .f32⟩
  | .hbm, ⟨50, _⟩ => ⟨S50000x256, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x256, .f32⟩
  | .hbm, ⟨60, _⟩ => ⟨S_, .f32⟩
  | .hbm, ⟨61, _⟩ => ⟨S50000x256, .f32⟩
  | .hbm, ⟨62, _⟩ => ⟨S800000x1, .i32⟩
  | .hbm, ⟨63, _⟩ => ⟨S50000x256, .f32⟩
  | .hbm, ⟨64, _⟩ => ⟨S_, .f32⟩
  | .hbm, ⟨65, _⟩ => ⟨S800000, .f32⟩
  | .hbm, ⟨66, _⟩ => ⟨S_, .f32⟩
  | .hbm, ⟨67, _⟩ => ⟨S50000, .f32⟩
  | .hbm, ⟨68, _⟩ => ⟨S800000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x256, .f32⟩
  | .hbm, ⟨75, _⟩ => ⟨S50000x256, .f32⟩
  | .hbm, ⟨76, _⟩ => ⟨S256x48, .f32⟩
  | .hbm, ⟨77, _⟩ => ⟨S50000x48, .f32⟩
  | .hbm, ⟨78, _⟩ => ⟨S256x48, .f32⟩
  | .hbm, ⟨79, _⟩ => ⟨S50000x48, .f32⟩
  | .hbm, ⟨80, _⟩ => ⟨S50000x48, .f32⟩
  | .hbm, ⟨81, _⟩ => ⟨S1x48, .f32⟩
  | .hbm, ⟨82, _⟩ => ⟨S50000x48, .f32⟩
  | .hbm, ⟨83, _⟩ => ⟨S50000x48, .f32⟩
  | .hbm, ⟨84, _⟩ => ⟨S_, .f32⟩
  | .hbm, ⟨85, _⟩ => ⟨S50000x48, .f32⟩
  | .hbm, ⟨86, _⟩ => ⟨S50000x48, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000x48, .f32⟩
  | .hbm, ⟨96, _⟩ => ⟨S_, .f32⟩
  | .hbm, ⟨97, _⟩ => ⟨S50000x48, .f32⟩
  | .hbm, ⟨98, _⟩ => ⟨S800000x1, .i32⟩
  | .hbm, ⟨99, _⟩ => ⟨S50000x48, .f32⟩
  | .hbm, ⟨100, _⟩ => ⟨S_, .f32⟩
  | .hbm, ⟨101, _⟩ => ⟨S800000, .f32⟩
  | .hbm, ⟨102, _⟩ => ⟨S_, .f32⟩
  | .hbm, ⟨103, _⟩ => ⟨S50000, .f32⟩
  | .hbm, ⟨104, _⟩ => ⟨S800000x1, .i32⟩
  | .hbm, ⟨105, _⟩ => ⟨S50000, .f32⟩
  | .hbm, ⟨106, _⟩ => ⟨S_, .f32⟩
  | .hbm, ⟨107, _⟩ => ⟨S50000, .f32⟩
  | .hbm, ⟨108, _⟩ => ⟨S50000, .f32⟩
  | .hbm, ⟨109, _⟩ => ⟨S50000x1, .f32⟩
  | .hbm, ⟨110, _⟩ => ⟨S50000x48, .f32⟩
  | .hbm, ⟨111, _⟩ => ⟨S50000x48, .f32⟩
  | .hbm, ⟨112, _⟩ => ⟨S48x128, .f32⟩
  | .hbm, ⟨113, _⟩ => ⟨S50000x128, .f32⟩
  | .hbm, ⟨114, _⟩ => ⟨S48x128, .f32⟩
  | .hbm, ⟨115, _⟩ => ⟨S50000x128, .f32⟩
  | .hbm, ⟨116, _⟩ => ⟨S50000x128, .f32⟩
  | .hbm, ⟨117, _⟩ => ⟨S1x128, .f32⟩
  | .hbm, ⟨118, _⟩ => ⟨S50000x128, .f32⟩
  | .hbm, ⟨119, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_c_10 : Ref sig .tc := ⟨.hbm, 87, rfl⟩
abbrev main_v60 : Ref sig .tc := ⟨.hbm, 88, rfl⟩
abbrev main_v61 : Ref sig .tc := ⟨.hbm, 89, rfl⟩
abbrev main_c_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_13 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S48x256_S256x48_1_0 : S48x256.Transposes [1, 0] S256x48
  bcast_S48_S1x48_1 : S48.BroadcastsInDim S1x48 (![1] : Fin 1 → Fin S1x48.rank)
  bcast_S1x48_S50000x48_0_1 : S1x48.BroadcastsInDim S50000x48 (![0, 1] : Fin 2 → Fin S50000x48.rank)
  bcast_S_S50000x48 : S_.BroadcastsInDim S50000x48 (![] : Fin 0 → Fin S50000x48.rank)
  bcast_S50000x1_S50000x48_0_1 : S50000x1.BroadcastsInDim S50000x48 (![0, 1] : Fin 2 → Fin S50000x48.rank)
  transposes_S128x48_S48x128_1_0 : S128x48.Transposes [1, 0] S48x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x48_S50000x48_1_0_0_1_n_n_wf : DotDims.WF S50000x256 S256x48 S50000x48 [1] [0] [0] [1] [] []
  gather_S50000x48_S800000x1_S800000x48_1_0_n_n_0_1_148_wf : GatherDims.WF S50000x48 S800000x1 S800000x48 [1] [0] [] [0] [] 1 ![1, 48]
  scatter_S50000x48_S800000x1_S800000x48_1_0_0_1_wf : ScatterDims.WF S50000x48 S800000x1 S800000x48 [1] [0] [0] 1
  dot_S50000x48_S48x128_S50000x128_1_0_0_1_n_n_wf : DotDims.WF S50000x48 S48x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x48_S50000x48_1_0_0_1_n_n : DotDims S50000x256 S256x48 S50000x48 where
  lhsContracting := [1]
  rhsContracting := [0]
  lhsNonContracting := [0]
  rhsNonContracting := [1]
  lhsBatch := []
  rhsBatch := []
  wf := dot_S50000x256_S256x48_S50000x48_1_0_0_1_n_n_wf
def gather_S50000x48_S800000x1_S800000x48_1_0_n_n_0_1_148 : GatherDims S50000x48 S800000x1 S800000x48 where
  offsetDims := [1]
  collapsedSliceDims := [0]
  operandBatchingDims := []
  startIndicesBatchingDims := []
  startIndexMap := [0]
  indexVectorDim := 1
  sliceSizes := ![1, 48]
  wf := gather_S50000x48_S800000x1_S800000x48_1_0_n_n_0_1_148_wf
def scatter_S50000x48_S800000x1_S800000x48_1_0_0_1 : ScatterDims S50000x48 S800000x1 S800000x48 where
  updateWindowDims := [1]
  insertedWindowDims := [0]
  scatterDimsToOperandDims := [0]
  indexVectorDim := 1
  wf := scatter_S50000x48_S800000x1_S800000x48_1_0_0_1_wf
def dot_S50000x48_S48x128_S50000x128_1_0_0_1_n_n : DotDims S50000x48 S48x128 S50000x128 where
  lhsContracting := [1]
  rhsContracting := [0]
  lhsNonContracting := [0]
  rhsNonContracting := [1]
  lhsBatch := []
  rhsBatch := []
  wf := dot_S50000x48_S48x128_S50000x128_1_0_0_1_n_n_wf

class Facts : Prop extends Facts₀ where

variable [Facts]
-- ==== Proof.KernelRun.lean ====
/-
  The idealized kernel's run with its RESULT named.

  @main is three pipelined regions among stretches of host operations.  The contents of every unscoped buffer
  at each boundary form a fold from the launch memory (the stretches' operations applied in order, each region's
  output array replaced by what its write-backs leave).  Every weakly fair execution ends with every unscoped
  buffer at the last stage of that fold; here the result buffer is read there beside the arguments, which end as
  launched.
-/
import proofs.«175776_j39556648796479_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's
    contents and every argument as launched. -/
theorem run_result : θ_run defs (onTc (τ := τ) (main (F := F))) ⟨m, fun _ => 0, ρ⟩ (fun r => ∀ c : Dev nD,
      r.2.mem ((c.tc : Thread nD τ).loc main_v56) = W6 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v56 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Run

end
-- ==== Proof.KOps.lean ====
/-
  The host side of the idealized kernel's program, as functions of arrays.

  From the edge list the program takes the source and the destination node of every edge, wraps a negative source
  index round, counts every node's in-degree by an accumulating scatter of ones, clamps it below by one and takes the
  reciprocal; before each layer it gathers the source nodes' feature rows and sums them into their destination nodes by an
  accumulating scatter into zeros.
-/
import proofs.«175776_j39556648796479_2_alg».proof.Proof.Gen.KernelIdeal

noncomputable section

namespace Cert.KernelIdeal.Ops

open Cert.KernelIdeal Idealize.ShloMosaic
open Cert.KernelIdeal.Facts₀ Cert.KernelIdeal.Facts

variable {F : FTy → Type} [FloatOps F]

/-- Row 0 of the edge list: every edge's source node. -/
def srcOf (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Row 1 of the edge list: every edge's destination node. -/
def dstOf (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The gather's index column: the source nodes, a negative one wrapped round by the node count. -/
def srcCol (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The scatter's index column: the destination nodes. -/
def dstCol (d : (⟨S800000, .i32⟩ : BufTy).Contents (Elt F)) : (⟨S800000x1, .i32⟩ : BufTy).Contents (Elt F) :=
  broadcastInDim S800000x1 ![0] bcast_S800000_S800000x1_0 d

/-- Every node's in-degree clamped below by one. -/
def deg (d : (⟨S800000, .i32⟩ : BufTy).Contents (Elt F)) : (⟨S50000, .f32⟩ : BufTy).Contents (Elt F) :=
  maximumf
    (Host.scatterAdd scatter_S50000_S800000x1_S800000_n_0_0_1
      (broadcastInDim S50000 ![] bcast_S_S50000 (constant S_ .f32 0x00000000#32)) (dstCol d)
      (broadcastInDim S800000 ![] bcast_S_S800000 (constant S_ .f32 0x3F800000#32)))
    (broadcastInDim S50000 ![] bcast_S_S50000 (constant S_ .f32 0x3F800000#32))

/-- The reciprocal of the clamped in-degree, as a column. -/
def invCol (d : (⟨S800000, .i32⟩ : BufTy).Contents (Elt F)) : (⟨S50000x1, .f32⟩ : BufTy).Contents (Elt F) :=
  shapeCast _ (Host.divf (broadcastInDim S50000 ![] bcast_S_S50000 (constant S_ .f32 0x3F800000#32)) (deg d)) shapeCasts_S50000_S50000x1

/-- The neighbour sums of 128-wide rows. -/
def agg0 (x : (⟨S50000x128, .f32⟩ : BufTy).Contents (Elt F)) (s d : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32)) (dstCol d)
    (Host.gather gather_S50000x128_S800000x1_S800000x128_1_0_n_n_0_1_1128 x (srcCol s))

/-- The neighbour sums of 256-wide rows held in the narrow float format. -/
def agg1 (h : (⟨S50000x256, .bf16⟩ : BufTy).Contents (Elt F)) (s d : (⟨S800000, .i32⟩ : BufTy).Contents (Elt F)) :
    (⟨S50000x256, .f32⟩ : BufTy).Contents (Elt F) :=
  Host.scatterAdd scatter_S50000x256_S800000x1_S800000x256_1_0_0_1
    (broadcastInDim S50000x256 ![] bcast_S_S50000x256 (constant S_ .f32 0x00000000#32)) (dstCol d)
    (extf .f32 (Host.gather gather_S50000x256_S800000x1_S800000x256_1_0_n_n_0_1_1256 h (srcCol s)) bitsLt_bf16_f32)

/-- The neighbour sums of 48-wide rows held in the narrow float format. -/
def agg2 (h : (⟨S50000x48, .bf16⟩ : BufTy).Contents (Elt F)) (s d : (⟨S800000, .i32⟩ : BufTy).Contents (Elt F)) :
    (⟨S50000x48, .f32⟩ : BufTy).Contents (Elt F) :=
  Host.scatterAdd scatter_S50000x48_S800000x1_S800000x48_1_0_0_1
    (broadcastInDim S50000x48 ![] bcast_S_S50000x48 (constant S_ .f32 0x00000000#32)) (dstCol d)
    (extf .f32 (Host.gather gather_S50000x48_S800000x1_S800000x48_1_0_n_n_0_1_148 h (srcCol s)) bitsLt_bf16_f32)

end Cert.KernelIdeal.Ops

end
-- ==== Proof.SageSpec.lean ====
/-
  One GraphSAGE layer, index by index, over the extended reals.

  A layer takes, for every node i, the SUM of its in-neighbours' feature rows (agg), the node's own row (h) and
  the reciprocal of its clamped in-degree (inv), and returns
      out[i, j] = Σ_k (agg[i, k] · inv[i]) · Wl[k, j]  +  Σ_k h[i, k] · Wr[k, j]  +  b[j]
  (followed by max(·, 0) for the first two layers).  One program multiplies the neighbour sum by the reciprocal
  1 / max(deg, 1); the other divides it by max(deg, 1).  On the extended reals x / y is x · y⁻¹ whenever y ≠ 0,
  and max(deg, 1) ≥ 1 is never 0, so the two agree for EVERY extended real deg and x: no finiteness is used.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The word of 1.0 and the word of +0.0 as extended reals. -/
abbrev one32 : EReal := Ideal.ofBits .f32 0x3F800000#32
abbrev zero32 : EReal := Ideal.ofBits .f32 0x00000000#32

theorem one32_eq : one32 = 1 := by
  simp [Ideal.ofBits, Ideal.ieee, -EReal.coe_mul]; norm_num

theorem zero32_eq : zero32 = 0 := Ideal.ofBits_zero_f32

/-- A degree clamped below by one is not zero. -/
theorem clamp_ne_zero (s : EReal) : max s one32 ≠ 0 := by
  rw [one32_eq]
  intro h
  have h1 : (1 : EReal) ≤ max s 1 := le_max_right _ _
  rw [h] at h1
  exact absurd h1 (not_le.mpr zero_lt_one)

/-- Scaling by the reciprocal of the clamped degree IS dividing by the clamped degree, for every extended real. -/
theorem mul_recip_eq_div (a s : EReal) :
    a * Ideal.div one32 (max s one32) = Ideal.div a (max s one32) := by
  have hd := clamp_ne_zero s
  unfold Ideal.div
  rw [if_neg hd, if_neg hd, one32_eq, one_mul]

/-- The layer's affine part at index (i, j): the scaled neighbour sum through Wl, the node's row through Wr, the bias.
    The weights arrive already transposed ([Fi, Fo]), the reciprocal degree as a column [N, 1], the bias as a row [1, Fo]. -/
def lin (N Fi Fo : Nat) (agg h : (⟨2, ![N, Fi]⟩ : Shape).Idx → EReal) (inv : (⟨2, ![N, 1]⟩ : Shape).Idx → EReal)
    (wl wr : (⟨2, ![Fi, Fo]⟩ : Shape).Idx → EReal) (b : (⟨2, ![1, Fo]⟩ : Shape).Idx → EReal) :
    (⟨2, ![N, Fo]⟩ : Shape).Idx → EReal := fun i =>
  (∑ k : Fin Fi, (agg (ix2 (i 0) k) * inv (ix2 (i 0) 0)) * wl (ix2 k (i 1)))
    + (∑ k : Fin Fi, h (ix2 (i 0) k) * wr (ix2 k (i 1))) + b (ix2 0 (i 1))

/-- The affine part at an index given by its coordinates. -/
theorem lin_ix2 (N Fi Fo : Nat) (agg h : (⟨2, ![N, Fi]⟩ : Shape).Idx → EReal) (inv : (⟨2, ![N, 1]⟩ : Shape).Idx → EReal)
    (wl wr : (⟨2, ![Fi, Fo]⟩ : Shape).Idx → EReal) (b : (⟨2, ![1, Fo]⟩ : Shape).Idx → EReal) (r : Fin N) (q : Fin Fo) :
    lin N Fi Fo agg h inv wl wr b (ix2 r q)
      = (∑ k : Fin Fi, (agg (ix2 r k) * inv (ix2 r (0 : Fin 1))) * wl (ix2 k q))
        + (∑ k : Fin Fi, h (ix2 r k) * wr (ix2 k q)) + b (ix2 (0 : Fin 1) q) := rfl

/-- The same followed by the rectifier against +0.0. -/
def linRelu (N Fi Fo : Nat) (agg h : (⟨2, ![N, Fi]⟩ : Shape).Idx → EReal) (inv : (⟨2, ![N, 1]⟩ : Shape).Idx → EReal)
    (wl wr : (⟨2, ![Fi, Fo]⟩ : Shape).Idx → EReal) (b : (⟨2, ![1, Fo]⟩ : Shape).Idx → EReal) :
    (⟨2, ![N, Fo]⟩ : Shape).Idx → EReal := fun i =>
  max (lin N Fi Fo agg h inv wl wr b i) zero32

end Cert.Sage

end
-- ==== Proof.KLayers.lean ====
/-
  The idealized kernel's three layers as functions of the argument arrays: each layer's function (SageSpec) of the neighbour
  sums of the previous layer's output, of that output, of the reciprocal-degree column, and of the layer's transposed
  weights and bias row, as the host operations before each region prepare them.
-/
import proofs.«175776_j39556648796479_2_alg».proof.Proof.KOps
import proofs.«175776_j39556648796479_2_alg».proof.Proof.SageSpec

noncomputable section

namespace Cert.KernelIdeal.Ops

open Cert.KernelIdeal Idealize.ShloMosaic Cert.Sage
open Cert.KernelIdeal.Facts₀ Cert.KernelIdeal.Facts

/-- The first hidden features. -/
def h1 (x : (⟨S50000x128, .f32⟩ : BufTy).Contents (Elt Ideal)) (e : (⟨S2x800000, .i32⟩ : BufTy).Contents (Elt Ideal))
    (w1l w1r : (⟨S256x128, .f32⟩ : BufTy).Contents (Elt Ideal)) (b1 : (⟨S256, .f32⟩ : BufTy).Contents (Elt Ideal)) :
    S50000x256.Idx → EReal :=
  linRelu 50000 128 256 (agg0 x (srcOf e) (dstOf e)) x (invCol (dstOf e))
    (transpose S128x256 [1, 0] w1l transposes_S256x128_S128x256_1_0)
    (transpose S128x256 [1, 0] w1r transposes_S256x128_S128x256_1_0)
    (shapeCast S1x256 b1 shapeCasts_S256_S1x256)

/-- The second hidden features, from the first. -/
def h2 (h : S50000x256.Idx → EReal) (e : (⟨S2x800000, .i32⟩ : BufTy).Contents (Elt Ideal))
    (w2l w2r : (⟨S48x256, .f32⟩ : BufTy).Contents (Elt Ideal)) (b2 : (⟨S48, .f32⟩ : BufTy).Contents (Elt Ideal)) :
    S50000x48.Idx → EReal :=
  linRelu 50000 256 48 (agg1 (F := Ideal) h (srcOf e) (dstOf e)) h (invCol (dstOf e))
    (transpose S256x48 [1, 0] w2l transposes_S48x256_S256x48_1_0)
    (transpose S256x48 [1, 0] w2r transposes_S48x256_S256x48_1_0)
    (shapeCast S1x48 b2 shapeCasts_S48_S1x48)

/-- The output, from the second hidden features. -/
def h3 (h : S50000x48.Idx → EReal) (e : (⟨S2x800000, .i32⟩ : BufTy).Contents (Elt Ideal))
    (w3l w3r : (⟨S128x48, .f32⟩ : BufTy).Contents (Elt Ideal)) (b3 : (⟨S128, .f32⟩ : BufTy).Contents (Elt Ideal)) :
    S50000x128.Idx → EReal :=
  lin 50000 48 128 (agg2 (F := Ideal) h (srcOf e) (dstOf e)) h (invCol (dstOf e))
    (transpose S48x128 [1, 0] w3l transposes_S128x48_S48x128_1_0)
    (transpose S48x128 [1, 0] w3r transposes_S128x48_S48x128_1_0)
    (shapeCast S1x128 b3 shapeCasts_S128_S1x128)

end Cert.KernelIdeal.Ops

end
-- ==== Proof.LibLayout.lean ====
/-
  Layout operations of small shapes read at an index built from coordinates: a column [a, 1] broadcast along the
  second axis, and a vector [a] cast to the column [a, 1].
-/
import Idealize.ShloMosaic.Lib.Pipeline.Value
import Idealize.ShloMosaic.Lib.ValueIdx

namespace Cert.Layout

open Idealize.ShloMosaic Idealize.ShloMosaic.ValueIdx

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(p, u)`, the vector at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.Layout
-- ==== Proof.Body0.lean ====
/-
  What region 0's body stores, at an index of its 2000 × 256 output block.

  The body scales the neighbour-sum block by the reciprocal-degree column, multiplies it into the first weight
  matrix, multiplies the node block into the second, adds the two products and the bias row, and rectifies.  A change of
  float format is the identity on the extended reals, and a matrix product into a zero accumulator is the plain sum
  over the contracted axis, so the stored entry (p, q) is
      max(Σ_k (agg[p, k] · inv[p]) · Wl[k, q] + Σ_k h[p, k] · Wr[k, q] + b[q], 0).
-/
import proofs.«175776_j39556648796479_2_alg».proof.Proof.Gen.KernelIdeal.Skeleton
import proofs.«175776_j39556648796479_2_alg».proof.Proof.SageSpec
import proofs.«175776_j39556648796479_2_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body0

open Cert.KernelIdeal Cert.KernelIdeal.Gen Idealize.ShloMosaic Idealize.ShloMosaic.ValueIdx Cert.Sage Cert.Layout

/-! ## The matrix product's operand indices at output (p, q) and contraction index k: (p, k) and (k, q) -/

theorem lhs_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A block product into the zero accumulator, at (p, q): the sum over k of left (p, k) times right (k, q). -/
theorem matmul_at {φ₁ φ₂ : FTy} (l : FVec Ideal S2000x128 φ₁) (r : FVec Ideal S128x256 φ₂) (p : Fin 2000) (q : Fin 256) :
    matmul dot_S2000x128_S128x256_S2000x256_1_0_0_1_n_n none l r (constant (F := Ideal) S2000x256 .f32 0x00000000#32) (ix2 p q)
      = ∑ k : Fin 128, l (ix2 p k) * r (ix2 k q) := by
  refine (Ideal.matmul_constant_zero_apply dot_S2000x128_S128x256_S2000x256_1_0_0_1_n_n none l r (ix2 p q)).trans ?_
  rw [← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The stored block at (p, q), from the loaded blocks: neighbour sums x0, reciprocal-degree column x2, node rows x7,
    the two weight matrices x9 and x12, the bias row x18. -/
theorem pay_at (x0 : FVec Ideal S2000x128 .f32) (x2 : FVec Ideal S2000x1 .f32) (x7 : FVec Ideal S2000x128 .f32)
    (x9 x12 : FVec Ideal S128x256 .f32) (x18 : FVec Ideal S1x256 .f32) (p : Fin 2000) (q : Fin 256) :
    k0_pay1 (F := Ideal) x0 x2 x7 x9 x12 x18 (ix2 p q)
      = max ((∑ k : Fin 128, (x0 (ix2 p k) * x2 (ix2 p (0 : Fin 1))) * x9 (ix2 k q)) + (∑ k : Fin 128, x7 (ix2 p k) * x12 (ix2 k q)) + x18 (ix2 (0 : Fin 1) q)) zero32 := by
  unfold k0_pay1
  simp only [shapeCast_self]
  rw [truncf_apply, maximumf_apply, addf_apply, addf_apply, broadcast_apply, matmul_at, matmul_at, broadcastTo_1b_ab_apply]
  simp only [truncf_apply, mulf_apply, broadcastTo_a1_ab_apply]
  rfl

end Cert.KernelIdeal.Body0

end
-- ==== Proof.Block0.lean ====
/-
  Region 0: from the blocks the grid points write back to the whole output array.

  The grid has 25 points; point t reads rows 2000·t … 2000·t + 1999 of the neighbour-sum array, of the node-feature
  array and of the reciprocal-degree column, reads both weight matrices and the bias row whole, and writes back rows
  2000·t … 2000·t + 1999 of the output.  The written block is the layer's function of the arrays restricted to those rows,
  and the 25 blocks cover every row, so after the region the output array IS that function of the arrays the region found.
-/
import proofs.«175776_j39556648796479_2_alg».proof.Proof.Gen.KernelIdeal.Frame
import proofs.«175776_j39556648796479_2_alg».proof.Proof.Body0
import Idealize.ShloMosaic.Lib.Pipeline.Value

set_option maxRecDepth 16384

noncomputable section

namespace Cert.KernelIdeal.Block0

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows sit at block row t, column block 0; the weights and the bias
    at block (0, 0). -/
theorem idx_facts : ∀ t : Fin cfg0.N,
      (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-- Row p of point t's block is row 2000·t + p of the array. -/
def row (t : Fin cfg0.N) (p : Fin 2000) : Fin 50000 :=
  ⟨t.val * 2000 + p.val, by have h1 := t.isLt; have h2 := p.isLt; have hN : cfg0.N = 25 := N_0; omega⟩

/-- Window 0's block at point t, entry (p, k): the array's entry in row 2000·t + p, column k. -/
theorem read_0 (c : Dev nD) (t : Fin cfg0.N) (p : Fin 2000) (k : Fin 128) :
    (iblk0 V c 0 t : FVec Ideal S2000x128 .f32) (ix2 p k) = (V c main_v22 : S50000x128.Idx → EReal) (ix2 (row t p) k) := by
  have e := idx_facts t
  unfold iblk0
  rw [View.read_apply]
  show V c main_v22 _ = V c main_v22 _
  refine congrArg (V c main_v22) (funext fun a => Fin.ext ?_)
  match a with
  | ⟨0, _⟩ => show win0_0.index t 0 * 2000 + 1 * p.val = t.val * 2000 + p.val; rw [e.1.1]; omega
  | ⟨1, _⟩ => show win0_0.index t 1 * 128 + 1 * k.val = k.val; rw [e.1.2]; omega

/-- Window 1's block at point t, entry (p, k): the array's entry in row 2000·t + p, column k. -/
theorem read_1 (c : Dev nD) (t : Fin cfg0.N) (p : Fin 2000) (k : Fin 128) :
    (iblk0 V c 1 t : FVec Ideal S2000x128 .f32) (ix2 p k) = (V c main_arg0 : S50000x128.Idx → EReal) (ix2 (row t p) k) := by
  have e := idx_facts t
  unfold iblk0
  rw [View.read_apply]
  show V c main_arg0 _ = V c main_arg0 _
  refine congrArg (V c main_arg0) (funext fun a => Fin.ext ?_)
  match a with
  | ⟨0, _⟩ => show win0_1.index t 0 * 2000 + 1 * p.val = t.val * 2000 + p.val; rw [e.2.1.1]; omega
  | ⟨1, _⟩ => show win0_1.index t 1 * 128 + 1 * k.val = k.val; rw [e.2.1.2]; omega

/-- Window 2's block at point t, entry (p, k): the array's entry in row 2000·t + p, column k. -/
theorem read_2 (c : Dev nD) (t : Fin cfg0.N) (p : Fin 2000) (k : Fin 1) :
    (iblk0 V c 2 t : FVec Ideal S2000x1 .f32) (ix2 p k) = (V c main_v12 : S50000x1.Idx → EReal) (ix2 (row t p) k) := by
  have e := idx_facts t
  unfold iblk0
  rw [View.read_apply]
  show V c main_v12 _ = V c main_v12 _
  refine congrArg (V c main_v12) (funext fun a => Fin.ext ?_)
  match a with
  | ⟨0, _⟩ => show win0_2.index t 0 * 2000 + 1 * p.val = t.val * 2000 + p.val; rw [e.2.2.1.1]; omega
  | ⟨1, _⟩ => show win0_2.index t 1 * 1 + 1 * k.val = k.val; rw [e.2.2.1.2]; omega

/-- Window 3's block is its whole array at every point. -/
theorem read_3 (c : Dev nD) (t : Fin cfg0.N) (a : Fin 128) (b : Fin 256) :
    (iblk0 V c 3 t : FVec Ideal S128x256 .f32) (ix2 a b) = (V c main_v23 : S128x256.Idx → EReal) (ix2 a b) := by
  have e := idx_facts t
  unfold iblk0
  rw [View.read_apply]
  show V c main_v23 _ = V c main_v23 _
  refine congrArg (V c main_v23) (funext fun x => Fin.ext ?_)
  match x with
  | ⟨0, _⟩ => show win0_3.index t 0 * 128 + 1 * a.val = a.val; rw [e.2.2.2.1.1]; omega
  | ⟨1, _⟩ => show win0_3.index t 1 * 256 + 1 * b.val = b.val; rw [e.2.2.2.1.2]; omega

/-- Window 4's block is its whole array at every point. -/
theorem read_4 (c : Dev nD) (t : Fin cfg0.N) (a : Fin 128) (b : Fin 256) :
    (iblk0 V c 4 t : FVec Ideal S128x256 .f32) (ix2 a b) = (V c main_v24 : S128x256.Idx → EReal) (ix2 a b) := by
  have e := idx_facts t
  unfold iblk0
  rw [View.read_apply]
  show V c main_v24 _ = V c main_v24 _
  refine congrArg (V c main_v24) (funext fun x => Fin.ext ?_)
  match x with
  | ⟨0, _⟩ => show win0_4.index t 0 * 128 + 1 * a.val = a.val; rw [e.2.2.2.2.1.1]; omega
  | ⟨1, _⟩ => show win0_4.index t 1 * 256 + 1 * b.val = b.val; rw [e.2.2.2.2.1.2]; omega

/-- Window 5's block is its whole array at every point. -/
theorem read_5 (c : Dev nD) (t : Fin cfg0.N) (a : Fin 1) (b : Fin 256) :
    (iblk0 V c 5 t : FVec Ideal S1x256 .f32) (ix2 a b) = (V c main_v25 : S1x256.Idx → EReal) (ix2 a b) := by
  have e := idx_facts t
  unfold iblk0
  rw [View.read_apply]
  show V c main_v25 _ = V c main_v25 _
  refine congrArg (V c main_v25) (funext fun x => Fin.ext ?_)
  match x with
  | ⟨0, _⟩ => show win0_5.index t 0 * 1 + 1 * a.val = a.val; rw [e.2.2.2.2.2.1.1]; omega
  | ⟨1, _⟩ => show win0_5.index t 1 * 256 + 1 * b.val = b.val; rw [e.2.2.2.2.2.1.2]; omega

/-- The layer's function of the arrays the region finds. -/
abbrev G (c : Dev nD) : S50000x256.Idx → EReal :=
  linRelu 50000 128 256 (V c main_v22) (V c main_arg0) (V c main_v12) (V c main_v23) (V c main_v24) (V c main_v25)

/-- What point t writes back is block t of that function. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S2000x128) hz, View.ld_unit_zero (S := S2000x1) hz, View.ld_unit_zero (S := S128x256) hz, View.ld_unit_zero (S := S1x256) hz]
  funext j
  obtain ⟨p, q, rfl⟩ : ∃ (p : Fin 2000) (q : Fin 256), j = ix2 p q := ⟨j 0, j 1, eq_ix2 j⟩
  refine (Body0.pay_at (iblk0 V c 0 t) (iblk0 V c 2 t) (iblk0 V c 1 t) (iblk0 V c 3 t) (iblk0 V c 4 t) (iblk0 V c 5 t) p q).trans ?_
  have e := idx_facts t
  have hemb : ((cfg0.win 6).blk t).view.emb (ix2 p q) = ix2 (row t p) q := by
    funext a; apply Fin.ext
    match a with
    | ⟨0, _⟩ => show win0_6.index t 0 * 2000 + 1 * p.val = t.val * 2000 + p.val; rw [e.2.2.2.2.2.2.1]; omega
    | ⟨1, _⟩ => show win0_6.index t 1 * 256 + 1 * q.val = q.val; rw [e.2.2.2.2.2.2.2]; omega
  rw [View.read_apply, hemb]
  show _ = max (lin 50000 128 256 (V c main_v22) (V c main_arg0) (V c main_v12) (V c main_v23) (V c main_v24) (V c main_v25) (ix2 (row t p) q)) zero32
  rw [lin_ix2]
  simp only [read_0 V c t, read_1 V c t, read_2 V c t, read_3 V c t, read_4 V c t, read_5 V c t]

/-- An index of the array is in point t's block iff each coordinate is in the block's range on its axis. -/
theorem mem_blk (t : Fin cfg0.N) (i : S50000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v26).slice (win0_6.rect t)).set ↔ _
  rw [View.set_slice_whole, Rect.mem_set_unit]
  exact Iff.rfl

/-- Every index of the output array lies in the block of the point its row falls in. -/
theorem cover (i : S50000x256.Idx) : ∃ t : Fin cfg0.N, (cfg0.win 6).flush t = true ∧ i ∈ ((cfg0.win 6).blk t).view.set := by
  have hi0 : (i 0).val < 50000 := (i 0).isLt
  have hi1 : (i 1).val < 256 := (i 1).isLt
  have hN : cfg0.N = 25 := N_0
  have ht : (i 0).val / 2000 < cfg0.N := by omega
  have e := idx_facts ⟨(i 0).val / 2000, ht⟩
  refine ⟨⟨(i 0).val / 2000, ht⟩, flush0_6 _, ?_⟩
  rw [mem_blk]
  intro a
  match a with
  | ⟨0, _⟩ =>
    show win0_6.index ⟨(i 0).val / 2000, ht⟩ 0 * 2000 ≤ (i 0).val ∧ (i 0).val < win0_6.index ⟨(i 0).val / 2000, ht⟩ 0 * 2000 + 2000
    rw [e.2.2.2.2.2.2.1]; show (i 0).val / 2000 * 2000 ≤ (i 0).val ∧ (i 0).val < (i 0).val / 2000 * 2000 + 2000; omega
  | ⟨1, _⟩ =>
    show win0_6.index ⟨(i 0).val / 2000, ht⟩ 1 * 256 ≤ (i 1).val ∧ (i 1).val < win0_6.index ⟨(i 0).val / 2000, ht⟩ 1 * 256 + 256
    rw [e.2.2.2.2.2.2.2]; omega

/-- The output array after the region: the layer's function of the arrays the region found. -/
theorem final (c : Dev nD) : (dat0 V c).arrAt 6 cfg0.N = G V c :=
  (dat0 V c).arrAt_eq_of_cover 6 (G V c) (fun t _ => flushed_eq V c t) cover

end Cert.KernelIdeal.Block0

end
-- ==== Proof.Body1.lean ====
/-
  What region 1's body stores, at an index of its 2000 × 48 output block.

  The body scales the neighbour-sum block by the reciprocal-degree column, multiplies it into the first weight
  matrix, multiplies the node block into the second, adds the two products and the bias row, and rectifies.  A change of
  float format is the identity on the extended reals, and a matrix product into a zero accumulator is the plain sum
  over the contracted axis, so the stored entry (p, q) is
      max(Σ_k (agg[p, k] · inv[p]) · Wl[k, q] + Σ_k h[p, k] · Wr[k, q] + b[q], 0).
-/
import proofs.«175776_j39556648796479_2_alg».proof.Proof.Gen.KernelIdeal.Skeleton
import proofs.«175776_j39556648796479_2_alg».proof.Proof.SageSpec
import proofs.«175776_j39556648796479_2_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body1

open Cert.KernelIdeal Cert.KernelIdeal.Gen Idealize.ShloMosaic Idealize.ShloMosaic.ValueIdx Cert.Sage Cert.Layout

/-! ## The matrix product's operand indices at output (p, q) and contraction index k: (p, k) and (k, q) -/

theorem lhs_0 (i : S2000x48.Idx) (q : dot_S2000x256_S256x48_S2000x48_1_0_0_1_n_n.contr.Idx) :
    (dot_S2000x256_S256x48_S2000x48_1_0_0_1_n_n.lhsIdx i q 0).val = (i 0).val := by
  unfold DotDims.lhsIdx
  rw [dif_neg (show ¬(0 : Fin S2000x256.rank) ∈ dot_S2000x256_S256x48_S2000x48_1_0_0_1_n_n.lhsBatch by decide), dif_pos (show (0 : Fin S2000x256.rank) ∈ dot_S2000x256_S256x48_S2000x48_1_0_0_1_n_n.lhsNonContracting by decide)]
  rfl
theorem lhs_1 (i : S2000x48.Idx) (q : dot_S2000x256_S256x48_S2000x48_1_0_0_1_n_n.contr.Idx) :
    (dot_S2000x256_S256x48_S2000x48_1_0_0_1_n_n.lhsIdx i q 1).val = (q ⟨0, by decide⟩).val :=
  dot_S2000x256_S256x48_S2000x48_1_0_0_1_n_n.lhsIdx_val_of_single rfl i q
theorem rhs_0 (i : S2000x48.Idx) (q : dot_S2000x256_S256x48_S2000x48_1_0_0_1_n_n.contr.Idx) :
    (dot_S2000x256_S256x48_S2000x48_1_0_0_1_n_n.rhsIdx i q 0).val = (q ⟨0, by decide⟩).val :=
  dot_S2000x256_S256x48_S2000x48_1_0_0_1_n_n.rhsIdx_val_of_single rfl i q
theorem rhs_1 (i : S2000x48.Idx) (q : dot_S2000x256_S256x48_S2000x48_1_0_0_1_n_n.contr.Idx) :
    (dot_S2000x256_S256x48_S2000x48_1_0_0_1_n_n.rhsIdx i q 1).val = (i 1).val := by
  unfold DotDims.rhsIdx
  rw [dif_neg (show ¬(1 : Fin S256x48.rank) ∈ dot_S2000x256_S256x48_S2000x48_1_0_0_1_n_n.rhsBatch by decide), dif_pos (show (1 : Fin S256x48.rank) ∈ dot_S2000x256_S256x48_S2000x48_1_0_0_1_n_n.rhsNonContracting by decide)]
  rfl

/-- A block product into the zero accumulator, at (p, q): the sum over k of left (p, k) times right (k, q). -/
theorem matmul_at {φ₁ φ₂ : FTy} (l : FVec Ideal S2000x256 φ₁) (r : FVec Ideal S256x48 φ₂) (p : Fin 2000) (q : Fin 48) :
    matmul dot_S2000x256_S256x48_S2000x48_1_0_0_1_n_n none l r (constant (F := Ideal) S2000x48 .f32 0x00000000#32) (ix2 p q)
      = ∑ k : Fin 256, l (ix2 p k) * r (ix2 k q) := by
  refine (Ideal.matmul_constant_zero_apply dot_S2000x256_S256x48_S2000x48_1_0_0_1_n_n none l r (ix2 p q)).trans ?_
  rw [← Equiv.sum_comp (contrEquiv1 dot_S2000x256_S256x48_S2000x48_1_0_0_1_n_n 256 rfl rfl).symm]
  refine Finset.sum_congr rfl fun k _ => ?_
  have hk := contrEquiv1_symm_val dot_S2000x256_S256x48_S2000x48_1_0_0_1_n_n 256 rfl rfl k
  have el : dot_S2000x256_S256x48_S2000x48_1_0_0_1_n_n.lhsIdx (ix2 p q) ((contrEquiv1 dot_S2000x256_S256x48_S2000x48_1_0_0_1_n_n 256 rfl rfl).symm k) = ix2 p k := funext fun a => Fin.ext (by
    match a with
    | ⟨0, _⟩ => exact lhs_0 _ _
    | ⟨1, _⟩ => exact (lhs_1 _ _).trans hk)
  have er : dot_S2000x256_S256x48_S2000x48_1_0_0_1_n_n.rhsIdx (ix2 p q) ((contrEquiv1 dot_S2000x256_S256x48_S2000x48_1_0_0_1_n_n 256 rfl rfl).symm k) = ix2 k q := funext fun a => Fin.ext (by
    match a with
    | ⟨0, _⟩ => exact (rhs_0 _ _).trans hk
    | ⟨1, _⟩ => exact rhs_1 _ _)
  rw [el, er]

/-- The stored block at (p, q), from the loaded blocks: neighbour sums x0, reciprocal-degree column x2, node rows x7,
    the two weight matrices x9 and x12, the bias row x18. -/
theorem pay_at (x0 : FVec Ideal S2000x256 .f32) (x2 : FVec Ideal S2000x1 .f32) (x7 : FVec Ideal S2000x256 .bf16)
    (x9 x12 : FVec Ideal S256x48 .f32) (x18 : FVec Ideal S1x48 .f32) (p : Fin 2000) (q : Fin 48) :
    k1_pay1 (F := Ideal) x0 x2 x7 x9 x12 x18 (ix2 p q)
      = max ((∑ k : Fin 256, (x0 (ix2 p k) * x2 (ix2 p (0 : Fin 1))) * x9 (ix2 k q)) + (∑ k : Fin 256, x7 (ix2 p k) * x12 (ix2 k q)) + x18 (ix2 (0 : Fin 1) q)) zero32 := by
  unfold k1_pay1
  simp only [shapeCast_self]
  rw [truncf_apply, maximumf_apply, addf_apply, addf_apply, broadcast_apply, matmul_at, matmul_at, broadcastTo_1b_ab_apply]
  simp only [truncf_apply, mulf_apply, broadcastTo_a1_ab_apply]
  rfl

end Cert.KernelIdeal.Body1

end
-- ==== Proof.Block1.lean ====
/-
  Region 1: from the blocks the grid points write back to the whole output array.

  The grid has 25 points; point t reads rows 2000·t … 2000·t + 1999 of the neighbour-sum array, of the node-feature
  array and of the reciprocal-degree column, reads both weight matrices and the bias row whole, and writes back rows
  2000·t … 2000·t + 1999 of the output.  The written block is the layer's function of the arrays restricted to those rows,
  and the 25 blocks cover every row, so after the region the output array IS that function of the arrays the region found.
-/
import proofs.«175776_j39556648796479_2_alg».proof.Proof.Gen.KernelIdeal.Frame
import proofs.«175776_j39556648796479_2_alg».proof.Proof.Body1
import Idealize.ShloMosaic.Lib.Pipeline.Value

set_option maxRecDepth 16384

noncomputable section

namespace Cert.KernelIdeal.Block1

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows sit at block row t, column block 0; the weights and the bias
    at block (0, 0). -/
theorem idx_facts : ∀ t : Fin cfg1.N,
      (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-- Row p of point t's block is row 2000·t + p of the array. -/
def row (t : Fin cfg1.N) (p : Fin 2000) : Fin 50000 :=
  ⟨t.val * 2000 + p.val, by have h1 := t.isLt; have h2 := p.isLt; have hN : cfg1.N = 25 := N_1; omega⟩

/-- Window 0's block at point t, entry (p, k): the array's entry in row 2000·t + p, column k. -/
theorem read_0 (c : Dev nD) (t : Fin cfg1.N) (p : Fin 2000) (k : Fin 256) :
    (iblk1 V c 0 t : FVec Ideal S2000x256 .f32) (ix2 p k) = (V c main_v37 : S50000x256.Idx → EReal) (ix2 (row t p) k) := by
  have e := idx_facts t
  unfold iblk1
  rw [View.read_apply]
  show V c main_v37 _ = V c main_v37 _
  refine congrArg (V c main_v37) (funext fun a => Fin.ext ?_)
  match a with
  | ⟨0, _⟩ => show win1_0.index t 0 * 2000 + 1 * p.val = t.val * 2000 + p.val; rw [e.1.1]; omega
  | ⟨1, _⟩ => show win1_0.index t 1 * 256 + 1 * k.val = k.val; rw [e.1.2]; omega

/-- Window 1's block at point t, entry (p, k): the array's entry in row 2000·t + p, column k. -/
theorem read_1 (c : Dev nD) (t : Fin cfg1.N) (p : Fin 2000) (k : Fin 256) :
    (iblk1 V c 1 t : FVec Ideal S2000x256 .bf16) (ix2 p k) = (V c main_v26 : S50000x256.Idx → EReal) (ix2 (row t p) k) := by
  have e := idx_facts t
  unfold iblk1
  rw [View.read_apply]
  show V c main_v26 _ = V c main_v26 _
  refine congrArg (V c main_v26) (funext fun a => Fin.ext ?_)
  match a with
  | ⟨0, _⟩ => show win1_1.index t 0 * 2000 + 1 * p.val = t.val * 2000 + p.val; rw [e.2.1.1]; omega
  | ⟨1, _⟩ => show win1_1.index t 1 * 256 + 1 * k.val = k.val; rw [e.2.1.2]; omega

/-- Window 2's block at point t, entry (p, k): the array's entry in row 2000·t + p, column k. -/
theorem read_2 (c : Dev nD) (t : Fin cfg1.N) (p : Fin 2000) (k : Fin 1) :
    (iblk1 V c 2 t : FVec Ideal S2000x1 .f32) (ix2 p k) = (V c main_v12 : S50000x1.Idx → EReal) (ix2 (row t p) k) := by
  have e := idx_facts t
  unfold iblk1
  rw [View.read_apply]
  show V c main_v12 _ = V c main_v12 _
  refine congrArg (V c main_v12) (funext fun a => Fin.ext ?_)
  match a with
  | ⟨0, _⟩ => show win1_2.index t 0 * 2000 + 1 * p.val = t.val * 2000 + p.val; rw [e.2.2.1.1]; omega
  | ⟨1, _⟩ => show win1_2.index t 1 * 1 + 1 * k.val = k.val; rw [e.2.2.1.2]; omega

/-- Window 3's block is its whole array at every point. -/
theorem read_3 (c : Dev nD) (t : Fin cfg1.N) (a : Fin 256) (b : Fin 48) :
    (iblk1 V c 3 t : FVec Ideal S256x48 .f32) (ix2 a b) = (V c main_v38 : S256x48.Idx → EReal) (ix2 a b) := by
  have e := idx_facts t
  unfold iblk1
  rw [View.read_apply]
  show V c main_v38 _ = V c main_v38 _
  refine congrArg (V c main_v38) (funext fun x => Fin.ext ?_)
  match x with
  | ⟨0, _⟩ => show win1_3.index t 0 * 256 + 1 * a.val = a.val; rw [e.2.2.2.1.1]; omega
  | ⟨1, _⟩ => show win1_3.index t 1 * 48 + 1 * b.val = b.val; rw [e.2.2.2.1.2]; omega

/-- Window 4's block is its whole array at every point. -/
theorem read_4 (c : Dev nD) (t : Fin cfg1.N) (a : Fin 256) (b : Fin 48) :
    (iblk1 V c 4 t : FVec Ideal S256x48 .f32) (ix2 a b) = (V c main_v39 : S256x48.Idx → EReal) (ix2 a b) := by
  have e := idx_facts t
  unfold iblk1
  rw [View.read_apply]
  show V c main_v39 _ = V c main_v39 _
  refine congrArg (V c main_v39) (funext fun x => Fin.ext ?_)
  match x with
  | ⟨0, _⟩ => show win1_4.index t 0 * 256 + 1 * a.val = a.val; rw [e.2.2.2.2.1.1]; omega
  | ⟨1, _⟩ => show win1_4.index t 1 * 48 + 1 * b.val = b.val; rw [e.2.2.2.2.1.2]; omega

/-- Window 5's block is its whole array at every point. -/
theorem read_5 (c : Dev nD) (t : Fin cfg1.N) (a : Fin 1) (b : Fin 48) :
    (iblk1 V c 5 t : FVec Ideal S1x48 .f32) (ix2 a b) = (V c main_v40 : S1x48.Idx → EReal) (ix2 a b) := by
  have e := idx_facts t
  unfold iblk1
  rw [View.read_apply]
  show V c main_v40 _ = V c main_v40 _
  refine congrArg (V c main_v40) (funext fun x => Fin.ext ?_)
  match x with
  | ⟨0, _⟩ => show win1_5.index t 0 * 1 + 1 * a.val = a.val; rw [e.2.2.2.2.2.1.1]; omega
  | ⟨1, _⟩ => show win1_5.index t 1 * 48 + 1 * b.val = b.val; rw [e.2.2.2.2.2.1.2]; omega

/-- The layer's function of the arrays the region finds. -/
abbrev G (c : Dev nD) : S50000x48.Idx → EReal :=
  linRelu 50000 256 48 (V c main_v37) (V c main_v26) (V c main_v12) (V c main_v38) (V c main_v39) (V c main_v40)

/-- What point t writes back is block t of that function. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S2000x256) hz, View.ld_unit_zero (S := S2000x1) hz, View.ld_unit_zero (S := S256x48) hz, View.ld_unit_zero (S := S1x48) hz]
  funext j
  obtain ⟨p, q, rfl⟩ : ∃ (p : Fin 2000) (q : Fin 48), j = ix2 p q := ⟨j 0, j 1, eq_ix2 j⟩
  refine (Body1.pay_at (iblk1 V c 0 t) (iblk1 V c 2 t) (iblk1 V c 1 t) (iblk1 V c 3 t) (iblk1 V c 4 t) (iblk1 V c 5 t) p q).trans ?_
  have e := idx_facts t
  have hemb : ((cfg1.win 6).blk t).view.emb (ix2 p q) = ix2 (row t p) q := by
    funext a; apply Fin.ext
    match a with
    | ⟨0, _⟩ => show win1_6.index t 0 * 2000 + 1 * p.val = t.val * 2000 + p.val; rw [e.2.2.2.2.2.2.1]; omega
    | ⟨1, _⟩ => show win1_6.index t 1 * 48 + 1 * q.val = q.val; rw [e.2.2.2.2.2.2.2]; omega
  rw [View.read_apply, hemb]
  show _ = max (lin 50000 256 48 (V c main_v37) (V c main_v26) (V c main_v12) (V c main_v38) (V c main_v39) (V c main_v40) (ix2 (row t p) q)) zero32
  rw [lin_ix2]
  simp only [read_0 V c t, read_1 V c t, read_2 V c t, read_3 V c t, read_4 V c t, read_5 V c t]

/-- An index of the array is in point t's block iff each coordinate is in the block's range on its axis. -/
theorem mem_blk (t : Fin cfg1.N) (i : S50000x48.Idx) :
    i ∈ ((cfg1.win 6).blk t).view.set ↔ ∀ a : Fin 2, win1_6.index t a * S2000x48.size a ≤ (i a).val ∧ (i a).val < win1_6.index t a * S2000x48.size a + S2000x48.size a := by
  show i ∈ ((View.whole main_v41).slice (win1_6.rect t)).set ↔ _
  rw [View.set_slice_whole, Rect.mem_set_unit]
  exact Iff.rfl

/-- Every index of the output array lies in the block of the point its row falls in. -/
theorem cover (i : S50000x48.Idx) : ∃ t : Fin cfg1.N, (cfg1.win 6).flush t = true ∧ i ∈ ((cfg1.win 6).blk t).view.set := by
  have hi0 : (i 0).val < 50000 := (i 0).isLt
  have hi1 : (i 1).val < 48 := (i 1).isLt
  have hN : cfg1.N = 25 := N_1
  have ht : (i 0).val / 2000 < cfg1.N := by omega
  have e := idx_facts ⟨(i 0).val / 2000, ht⟩
  refine ⟨⟨(i 0).val / 2000, ht⟩, flush1_6 _, ?_⟩
  rw [mem_blk]
  intro a
  match a with
  | ⟨0, _⟩ =>
    show win1_6.index ⟨(i 0).val / 2000, ht⟩ 0 * 2000 ≤ (i 0).val ∧ (i 0).val < win1_6.index ⟨(i 0).val / 2000, ht⟩ 0 * 2000 + 2000
    rw [e.2.2.2.2.2.2.1]; show (i 0).val / 2000 * 2000 ≤ (i 0).val ∧ (i 0).val < (i 0).val / 2000 * 2000 + 2000; omega
  | ⟨1, _⟩ =>
    show win1_6.index ⟨(i 0).val / 2000, ht⟩ 1 * 48 ≤ (i 1).val ∧ (i 1).val < win1_6.index ⟨(i 0).val / 2000, ht⟩ 1 * 48 + 48
    rw [e.2.2.2.2.2.2.2]; omega

/-- The output array after the region: the layer's function of the arrays the region found. -/
theorem final (c : Dev nD) : (dat1 V c).arrAt 6 cfg1.N = G V c :=
  (dat1 V c).arrAt_eq_of_cover 6 (G V c) (fun t _ => flushed_eq V c t) cover

end Cert.KernelIdeal.Block1

end
-- ==== Proof.Body2.lean ====
/-
  What region 2's body stores, at an index of its 2000 × 128 output block.

  The body scales the neighbour-sum block by the reciprocal-degree column, multiplies it into the first weight
  matrix, multiplies the node block into the second, adds the two products and the bias row.  A change of
  float format is the identity on the extended reals, and a matrix product into a zero accumulator is the plain sum
  over the contracted axis, so the stored entry (p, q) is
      Σ_k (agg[p, k] · inv[p]) · Wl[k, q] + Σ_k h[p, k] · Wr[k, q] + b[q].
-/
import proofs.«175776_j39556648796479_2_alg».proof.Proof.Gen.KernelIdeal.Skeleton
import proofs.«175776_j39556648796479_2_alg».proof.Proof.SageSpec
import proofs.«175776_j39556648796479_2_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body2

open Cert.KernelIdeal Cert.KernelIdeal.Gen Idealize.ShloMosaic Idealize.ShloMosaic.ValueIdx Cert.Sage Cert.Layout

/-! ## The matrix product's operand indices at output (p, q) and contraction index k: (p, k) and (k, q) -/

theorem lhs_0 (i : S2000x128.Idx) (q : dot_S2000x48_S48x128_S2000x128_1_0_0_1_n_n.contr.Idx) :
    (dot_S2000x48_S48x128_S2000x128_1_0_0_1_n_n.lhsIdx i q 0).val = (i 0).val := by
  unfold DotDims.lhsIdx
  rw [dif_neg (show ¬(0 : Fin S2000x48.rank) ∈ dot_S2000x48_S48x128_S2000x128_1_0_0_1_n_n.lhsBatch by decide), dif_pos (show (0 : Fin S2000x48.rank) ∈ dot_S2000x48_S48x128_S2000x128_1_0_0_1_n_n.lhsNonContracting by decide)]
  rfl
theorem lhs_1 (i : S2000x128.Idx) (q : dot_S2000x48_S48x128_S2000x128_1_0_0_1_n_n.contr.Idx) :
    (dot_S2000x48_S48x128_S2000x128_1_0_0_1_n_n.lhsIdx i q 1).val = (q ⟨0, by decide⟩).val :=
  dot_S2000x48_S48x128_S2000x128_1_0_0_1_n_n.lhsIdx_val_of_single rfl i q
theorem rhs_0 (i : S2000x128.Idx) (q : dot_S2000x48_S48x128_S2000x128_1_0_0_1_n_n.contr.Idx) :
    (dot_S2000x48_S48x128_S2000x128_1_0_0_1_n_n.rhsIdx i q 0).val = (q ⟨0, by decide⟩).val :=
  dot_S2000x48_S48x128_S2000x128_1_0_0_1_n_n.rhsIdx_val_of_single rfl i q
theorem rhs_1 (i : S2000x128.Idx) (q : dot_S2000x48_S48x128_S2000x128_1_0_0_1_n_n.contr.Idx) :
    (dot_S2000x48_S48x128_S2000x128_1_0_0_1_n_n.rhsIdx i q 1).val = (i 1).val := by
  unfold DotDims.rhsIdx
  rw [dif_neg (show ¬(1 : Fin S48x128.rank) ∈ dot_S2000x48_S48x128_S2000x128_1_0_0_1_n_n.rhsBatch by decide), dif_pos (show (1 : Fin S48x128.rank) ∈ dot_S2000x48_S48x128_S2000x128_1_0_0_1_n_n.rhsNonContracting by decide)]
  rfl

/-- A block product into the zero accumulator, at (p, q): the sum over k of left (p, k) times right (k, q). -/
theorem matmul_at {φ₁ φ₂ : FTy} (l : FVec Ideal S2000x48 φ₁) (r : FVec Ideal S48x128 φ₂) (p : Fin 2000) (q : Fin 128) :
    matmul dot_S2000x48_S48x128_S2000x128_1_0_0_1_n_n none l r (constant (F := Ideal) S2000x128 .f32 0x00000000#32) (ix2 p q)
      = ∑ k : Fin 48, l (ix2 p k) * r (ix2 k q) := by
  refine (Ideal.matmul_constant_zero_apply dot_S2000x48_S48x128_S2000x128_1_0_0_1_n_n none l r (ix2 p q)).trans ?_
  rw [← Equiv.sum_comp (contrEquiv1 dot_S2000x48_S48x128_S2000x128_1_0_0_1_n_n 48 rfl rfl).symm]
  refine Finset.sum_congr rfl fun k _ => ?_
  have hk := contrEquiv1_symm_val dot_S2000x48_S48x128_S2000x128_1_0_0_1_n_n 48 rfl rfl k
  have el : dot_S2000x48_S48x128_S2000x128_1_0_0_1_n_n.lhsIdx (ix2 p q) ((contrEquiv1 dot_S2000x48_S48x128_S2000x128_1_0_0_1_n_n 48 rfl rfl).symm k) = ix2 p k := funext fun a => Fin.ext (by
    match a with
    | ⟨0, _⟩ => exact lhs_0 _ _
    | ⟨1, _⟩ => exact (lhs_1 _ _).trans hk)
  have er : dot_S2000x48_S48x128_S2000x128_1_0_0_1_n_n.rhsIdx (ix2 p q) ((contrEquiv1 dot_S2000x48_S48x128_S2000x128_1_0_0_1_n_n 48 rfl rfl).symm k) = ix2 k q := funext fun a => Fin.ext (by
    match a with
    | ⟨0, _⟩ => exact (rhs_0 _ _).trans hk
    | ⟨1, _⟩ => exact rhs_1 _ _)
  rw [el, er]

/-- The stored block at (p, q), from the loaded blocks: neighbour sums x0, reciprocal-degree column x2, node rows x7,
    the two weight matrices x9 and x12, the bias row x18. -/
theorem pay_at (x0 : FVec Ideal S2000x48 .f32) (x2 : FVec Ideal S2000x1 .f32) (x7 : FVec Ideal S2000x48 .bf16)
    (x9 x12 : FVec Ideal S48x128 .f32) (x18 : FVec Ideal S1x128 .f32) (p : Fin 2000) (q : Fin 128) :
    k2_pay1 (F := Ideal) x0 x2 x7 x9 x12 x18 (ix2 p q)
      = (∑ k : Fin 48, (x0 (ix2 p k) * x2 (ix2 p (0 : Fin 1))) * x9 (ix2 k q)) + (∑ k : Fin 48, x7 (ix2 p k) * x12 (ix2 k q)) + x18 (ix2 (0 : Fin 1) q) := by
  unfold k2_pay1
  simp only [shapeCast_self]
  rw [addf_apply, addf_apply, matmul_at, matmul_at, broadcastTo_1b_ab_apply]
  simp only [truncf_apply, mulf_apply, broadcastTo_a1_ab_apply]

end Cert.KernelIdeal.Body2

end
-- ==== Proof.Block2.lean ====
/-
  Region 2: from the blocks the grid points write back to the whole output array.

  The grid has 25 points; point t reads rows 2000·t … 2000·t + 1999 of the neighbour-sum array, of the node-feature
  array and of the reciprocal-degree column, reads both weight matrices and the bias row whole, and writes back rows
  2000·t … 2000·t + 1999 of the output.  The written block is the layer's function of the arrays restricted to those rows,
  and the 25 blocks cover every row, so after the region the output array IS that function of the arrays the region found.
-/
import proofs.«175776_j39556648796479_2_alg».proof.Proof.Gen.KernelIdeal.Frame
import proofs.«175776_j39556648796479_2_alg».proof.Proof.Body2
import Idealize.ShloMosaic.Lib.Pipeline.Value

set_option maxRecDepth 16384

noncomputable section

namespace Cert.KernelIdeal.Block2

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows sit at block row t, column block 0; the weights and the bias
    at block (0, 0). -/
theorem idx_facts : ∀ t : Fin cfg2.N,
      (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0) :=
  (by decide +kernel : ∀ t : Fin grid2.N, _)

/-- Row p of point t's block is row 2000·t + p of the array. -/
def row (t : Fin cfg2.N) (p : Fin 2000) : Fin 50000 :=
  ⟨t.val * 2000 + p.val, by have h1 := t.isLt; have h2 := p.isLt; have hN : cfg2.N = 25 := N_2; omega⟩

/-- Window 0's block at point t, entry (p, k): the array's entry in row 2000·t + p, column k. -/
theorem read_0 (c : Dev nD) (t : Fin cfg2.N) (p : Fin 2000) (k : Fin 48) :
    (iblk2 V c 0 t : FVec Ideal S2000x48 .f32) (ix2 p k) = (V c main_v52 : S50000x48.Idx → EReal) (ix2 (row t p) k) := by
  have e := idx_facts t
  unfold iblk2
  rw [View.read_apply]
  show V c main_v52 _ = V c main_v52 _
  refine congrArg (V c main_v52) (funext fun a => Fin.ext ?_)
  match a with
  | ⟨0, _⟩ => show win2_0.index t 0 * 2000 + 1 * p.val = t.val * 2000 + p.val; rw [e.1.1]; omega
  | ⟨1, _⟩ => show win2_0.index t 1 * 48 + 1 * k.val = k.val; rw [e.1.2]; omega

/-- Window 1's block at point t, entry (p, k): the array's entry in row 2000·t + p, column k. -/
theorem read_1 (c : Dev nD) (t : Fin cfg2.N) (p : Fin 2000) (k : Fin 48) :
    (iblk2 V c 1 t : FVec Ideal S2000x48 .bf16) (ix2 p k) = (V c main_v41 : S50000x48.Idx → EReal) (ix2 (row t p) k) := by
  have e := idx_facts t
  unfold iblk2
  rw [View.read_apply]
  show V c main_v41 _ = V c main_v41 _
  refine congrArg (V c main_v41) (funext fun a => Fin.ext ?_)
  match a with
  | ⟨0, _⟩ => show win2_1.index t 0 * 2000 + 1 * p.val = t.val * 2000 + p.val; rw [e.2.1.1]; omega
  | ⟨1, _⟩ => show win2_1.index t 1 * 48 + 1 * k.val = k.val; rw [e.2.1.2]; omega

/-- Window 2's block at point t, entry (p, k): the array's entry in row 2000·t + p, column k. -/
theorem read_2 (c : Dev nD) (t : Fin cfg2.N) (p : Fin 2000) (k : Fin 1) :
    (iblk2 V c 2 t : FVec Ideal S2000x1 .f32) (ix2 p k) = (V c main_v12 : S50000x1.Idx → EReal) (ix2 (row t p) k) := by
  have e := idx_facts t
  unfold iblk2
  rw [View.read_apply]
  show V c main_v12 _ = V c main_v12 _
  refine congrArg (V c main_v12) (funext fun a => Fin.ext ?_)
  match a with
  | ⟨0, _⟩ => show win2_2.index t 0 * 2000 + 1 * p.val = t.val * 2000 + p.val; rw [e.2.2.1.1]; omega
  | ⟨1, _⟩ => show win2_2.index t 1 * 1 + 1 * k.val = k.val; rw [e.2.2.1.2]; omega

/-- Window 3's block is its whole array at every point. -/
theorem read_3 (c : Dev nD) (t : Fin cfg2.N) (a : Fin 48) (b : Fin 128) :
    (iblk2 V c 3 t : FVec Ideal S48x128 .f32) (ix2 a b) = (V c main_v53 : S48x128.Idx → EReal) (ix2 a b) := by
  have e := idx_facts t
  unfold iblk2
  rw [View.read_apply]
  show V c main_v53 _ = V c main_v53 _
  refine congrArg (V c main_v53) (funext fun x => Fin.ext ?_)
  match x with
  | ⟨0, _⟩ => show win2_3.index t 0 * 48 + 1 * a.val = a.val; rw [e.2.2.2.1.1]; omega
  | ⟨1, _⟩ => show win2_3.index t 1 * 128 + 1 * b.val = b.val; rw [e.2.2.2.1.2]; omega

/-- Window 4's block is its whole array at every point. -/
theorem read_4 (c : Dev nD) (t : Fin cfg2.N) (a : Fin 48) (b : Fin 128) :
    (iblk2 V c 4 t : FVec Ideal S48x128 .f32) (ix2 a b) = (V c main_v54 : S48x128.Idx → EReal) (ix2 a b) := by
  have e := idx_facts t
  unfold iblk2
  rw [View.read_apply]
  show V c main_v54 _ = V c main_v54 _
  refine congrArg (V c main_v54) (funext fun x => Fin.ext ?_)
  match x with
  | ⟨0, _⟩ => show win2_4.index t 0 * 48 + 1 * a.val = a.val; rw [e.2.2.2.2.1.1]; omega
  | ⟨1, _⟩ => show win2_4.index t 1 * 128 + 1 * b.val = b.val; rw [e.2.2.2.2.1.2]; omega

/-- Window 5's block is its whole array at every point. -/
theorem read_5 (c : Dev nD) (t : Fin cfg2.N) (a : Fin 1) (b : Fin 128) :
    (iblk2 V c 5 t : FVec Ideal S1x128 .f32) (ix2 a b) = (V c main_v55 : S1x128.Idx → EReal) (ix2 a b) := by
  have e := idx_facts t
  unfold iblk2
  rw [View.read_apply]
  show V c main_v55 _ = V c main_v55 _
  refine congrArg (V c main_v55) (funext fun x => Fin.ext ?_)
  match x with
  | ⟨0, _⟩ => show win2_5.index t 0 * 1 + 1 * a.val = a.val; rw [e.2.2.2.2.2.1.1]; omega
  | ⟨1, _⟩ => show win2_5.index t 1 * 128 + 1 * b.val = b.val; rw [e.2.2.2.2.2.1.2]; omega

/-- The layer's function of the arrays the region finds. -/
abbrev G (c : Dev nD) : S50000x128.Idx → EReal :=
  lin 50000 48 128 (V c main_v52) (V c main_v41) (V c main_v12) (V c main_v53) (V c main_v54) (V c main_v55)

/-- What point t writes back is block t of that function. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S2000x48) hz, View.ld_unit_zero (S := S2000x1) hz, View.ld_unit_zero (S := S48x128) hz, View.ld_unit_zero (S := S1x128) hz]
  funext j
  obtain ⟨p, q, rfl⟩ : ∃ (p : Fin 2000) (q : Fin 128), j = ix2 p q := ⟨j 0, j 1, eq_ix2 j⟩
  refine (Body2.pay_at (iblk2 V c 0 t) (iblk2 V c 2 t) (iblk2 V c 1 t) (iblk2 V c 3 t) (iblk2 V c 4 t) (iblk2 V c 5 t) p q).trans ?_
  have e := idx_facts t
  have hemb : ((cfg2.win 6).blk t).view.emb (ix2 p q) = ix2 (row t p) q := by
    funext a; apply Fin.ext
    match a with
    | ⟨0, _⟩ => show win2_6.index t 0 * 2000 + 1 * p.val = t.val * 2000 + p.val; rw [e.2.2.2.2.2.2.1]; omega
    | ⟨1, _⟩ => show win2_6.index t 1 * 128 + 1 * q.val = q.val; rw [e.2.2.2.2.2.2.2]; omega
  rw [View.read_apply, hemb]
  show _ = lin 50000 48 128 (V c main_v52) (V c main_v41) (V c main_v12) (V c main_v53) (V c main_v54) (V c main_v55) (ix2 (row t p) q)
  rw [lin_ix2]
  simp only [read_0 V c t, read_1 V c t, read_2 V c t, read_3 V c t, read_4 V c t, read_5 V c t]

/-- An index of the array is in point t's block iff each coordinate is in the block's range on its axis. -/
theorem mem_blk (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v56).slice (win2_6.rect t)).set ↔ _
  rw [View.set_slice_whole, Rect.mem_set_unit]
  exact Iff.rfl

/-- Every index of the output array lies in the block of the point its row falls in. -/
theorem cover (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 25 := N_2
  have ht : (i 0).val / 2000 < cfg2.N := by omega
  have e := idx_facts ⟨(i 0).val / 2000, ht⟩
  refine ⟨⟨(i 0).val / 2000, ht⟩, flush2_6 _, ?_⟩
  rw [mem_blk]
  intro a
  match a with
  | ⟨0, _⟩ =>
    show win2_6.index ⟨(i 0).val / 2000, ht⟩ 0 * 2000 ≤ (i 0).val ∧ (i 0).val < win2_6.index ⟨(i 0).val / 2000, ht⟩ 0 * 2000 + 2000
    rw [e.2.2.2.2.2.2.1]; show (i 0).val / 2000 * 2000 ≤ (i 0).val ∧ (i 0).val < (i 0).val / 2000 * 2000 + 2000; omega
  | ⟨1, _⟩ =>
    show win2_6.index ⟨(i 0).val / 2000, ht⟩ 1 * 128 ≤ (i 1).val ∧ (i 1).val < win2_6.index ⟨(i 0).val / 2000, ht⟩ 1 * 128 + 128
    rw [e.2.2.2.2.2.2.2]; omega

/-- The output array after the region: the layer's function of the arrays the region found. -/
theorem final (c : Dev nD) : (dat2 V c).arrAt 6 cfg2.N = G V c :=
  (dat2 V c).arrAt_eq_of_cover 6 (G V c) (fun t _ => flushed_eq V c t) cover

end Cert.KernelIdeal.Block2

end
-- ==== Proof.Fold.lean ====
/-
  The buffers the idealized kernel's three regions read and write, followed from the launch memory through the program.

  Before region 0 the host operations prepare, from the arguments, the edge lists, the reciprocal-degree column, the first
  neighbour sums, and the first layer's transposed weights and bias row.  Region 0 leaves the first hidden features;
  the next stretch gathers and sums THEM, and so on.  Every buffer a later stage reads is either an argument, something an
  earlier stretch computed and nothing since has written, or a region's output.
-/
import proofs.«175776_j39556648796479_2_alg».proof.Proof.Gen.KernelIdeal.Frame
import proofs.«175776_j39556648796479_2_alg».proof.Proof.KOps
import proofs.«175776_j39556648796479_2_alg».proof.Proof.KLayers
import proofs.«175776_j39556648796479_2_alg».proof.Proof.Block0
import proofs.«175776_j39556648796479_2_alg».proof.Proof.Block1
import proofs.«175776_j39556648796479_2_alg».proof.Proof.Block2
import Idealize.ShloMosaic.Lib.StableHlo.Run

set_option maxRecDepth 16384

noncomputable section

namespace Cert.KernelIdeal.Fold

open Cert.KernelIdeal Cert.KernelIdeal.Gen Cert.KernelIdeal.Ops
open Idealize.ShloMosaic Idealize.ShloMosaic.TcCoe Idealize.SL.Sem Idealize.ShloMosaic.StableHlo Cert.Sage

variable (m : (ℓ : Loc nD τ sig) → Buf (Elt Ideal) ℓ) (ρ : Dev nD → PrngReg)

/-! ## Before region 0: everything is computed from the arguments -/

set_option maxHeartbeats 4000000 in
theorem W1_v1 (c : Dev nD) : W1 m ρ c (Proc.devRef .tc main_v1) = srcOf (m ((c : Thread nD τ).loc main_arg1)) := by
  show StableHlo.after hostOps0 (W0 m ρ c) (Proc.devRef .tc main_v1) = _
  after_results_simp <;> (rfl)

set_option maxHeartbeats 4000000 in
theorem W1_v3 (c : Dev nD) : W1 m ρ c (Proc.devRef .tc main_v3) = dstOf (m ((c : Thread nD τ).loc main_arg1)) := by
  show StableHlo.after hostOps0 (W0 m ρ c) (Proc.devRef .tc main_v3) = _
  after_results_simp <;> (rfl)

set_option maxHeartbeats 4000000 in
theorem W1_v12 (c : Dev nD) : W1 m ρ c (Proc.devRef .tc main_v12) = invCol (dstOf (m ((c : Thread nD τ).loc main_arg1))) := by
  show StableHlo.after hostOps0 (W0 m ρ c) (Proc.devRef .tc main_v12) = _
  after_results_simp <;> (rfl)

set_option maxHeartbeats 4000000 in
theorem W1_v22 (c : Dev nD) : W1 m ρ c (Proc.devRef .tc main_v22) = agg0 (m ((c : Thread nD τ).loc main_arg0)) (srcOf (m ((c : Thread nD τ).loc main_arg1))) (dstOf (m ((c : Thread nD τ).loc main_arg1))) := by
  show StableHlo.after hostOps0 (W0 m ρ c) (Proc.devRef .tc main_v22) = _
  after_results_simp <;> (rfl)

set_option maxHeartbeats 4000000 in
theorem W1_v23 (c : Dev nD) : W1 m ρ c (Proc.devRef .tc main_v23) = transpose S128x256 [1, 0] (m ((c : Thread nD τ).loc main_arg2)) Facts₀.transposes_S256x128_S128x256_1_0 := by
  show StableHlo.after hostOps0 (W0 m ρ c) (Proc.devRef .tc main_v23) = _
  after_results_simp <;> (rfl)

set_option maxHeartbeats 4000000 in
theorem W1_v24 (c : Dev nD) : W1 m ρ c (Proc.devRef .tc main_v24) = transpose S128x256 [1, 0] (m ((c : Thread nD τ).loc main_arg3)) Facts₀.transposes_S256x128_S128x256_1_0 := by
  show StableHlo.after hostOps0 (W0 m ρ c) (Proc.devRef .tc main_v24) = _
  after_results_simp <;> (rfl)

set_option maxHeartbeats 4000000 in
theorem W1_v25 (c : Dev nD) : W1 m ρ c (Proc.devRef .tc main_v25) = shapeCast S1x256 (m ((c : Thread nD τ).loc main_arg4)) Facts₀.shapeCasts_S256_S1x256 := by
  show StableHlo.after hostOps0 (W0 m ρ c) (Proc.devRef .tc main_v25) = _
  after_results_simp <;> (rfl)

set_option maxHeartbeats 4000000 in
theorem W1_arg0 (c : Dev nD) : W1 m ρ c (Proc.devRef .tc main_arg0) = (m ((c : Thread nD τ).loc main_arg0)) := by
  show StableHlo.after hostOps0 (W0 m ρ c) (Proc.devRef .tc main_arg0) = _
  after_results_simp <;> (rfl)

set_option maxHeartbeats 4000000 in
theorem W1_arg5 (c : Dev nD) : W1 m ρ c (Proc.devRef .tc main_arg5) = (m ((c : Thread nD τ).loc main_arg5)) := by
  show StableHlo.after hostOps0 (W0 m ρ c) (Proc.devRef .tc main_arg5) = _
  after_results_simp <;> (rfl)

set_option maxHeartbeats 4000000 in
theorem W1_arg6 (c : Dev nD) : W1 m ρ c (Proc.devRef .tc main_arg6) = (m ((c : Thread nD τ).loc main_arg6)) := by
  show StableHlo.after hostOps0 (W0 m ρ c) (Proc.devRef .tc main_arg6) = _
  after_results_simp <;> (rfl)

set_option maxHeartbeats 4000000 in
theorem W1_arg7 (c : Dev nD) : W1 m ρ c (Proc.devRef .tc main_arg7) = (m ((c : Thread nD τ).loc main_arg7)) := by
  show StableHlo.after hostOps0 (W0 m ρ c) (Proc.devRef .tc main_arg7) = _
  after_results_simp <;> (rfl)

set_option maxHeartbeats 4000000 in
theorem W1_arg8 (c : Dev nD) : W1 m ρ c (Proc.devRef .tc main_arg8) = (m ((c : Thread nD τ).loc main_arg8)) := by
  show StableHlo.after hostOps0 (W0 m ρ c) (Proc.devRef .tc main_arg8) = _
  after_results_simp <;> (rfl)

set_option maxHeartbeats 4000000 in
theorem W1_arg9 (c : Dev nD) : W1 m ρ c (Proc.devRef .tc main_arg9) = (m ((c : Thread nD τ).loc main_arg9)) := by
  show StableHlo.after hostOps0 (W0 m ρ c) (Proc.devRef .tc main_arg9) = _
  after_results_simp <;> (rfl)

set_option maxHeartbeats 4000000 in
theorem W1_arg10 (c : Dev nD) : W1 m ρ c (Proc.devRef .tc main_arg10) = (m ((c : Thread nD τ).loc main_arg10)) := by
  show StableHlo.after hostOps0 (W0 m ρ c) (Proc.devRef .tc main_arg10) = _
  after_results_simp <;> (rfl)

/-! ## After region 0: the first hidden features; the rest as before -/

theorem W2_v26 (c : Dev nD) : W2 m ρ c (Proc.devRef .tc main_v26) = h1 (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 6).trans ((Block0.final (V1 m ρ) c).trans ?_)
  show linRelu 50000 128 256 (W1 m ρ c (Proc.devRef .tc main_v22)) (W1 m ρ c (Proc.devRef .tc main_arg0))
    (W1 m ρ c (Proc.devRef .tc main_v12)) (W1 m ρ c (Proc.devRef .tc main_v23)) (W1 m ρ c (Proc.devRef .tc main_v24))
    (W1 m ρ c (Proc.devRef .tc main_v25)) = _
  rw [W1_v22, W1_arg0, W1_v12, W1_v23, W1_v24, W1_v25]
  rfl

theorem W2_v1 (c : Dev nD) : W2 m ρ c (Proc.devRef .tc main_v1) = srcOf (m ((c : Thread nD τ).loc main_arg1)) :=
  (W2_of_ne m ρ c main_v1 (by decide)).trans (W1_v1 m ρ c)

theorem W2_v3 (c : Dev nD) : W2 m ρ c (Proc.devRef .tc main_v3) = dstOf (m ((c : Thread nD τ).loc main_arg1)) :=
  (W2_of_ne m ρ c main_v3 (by decide)).trans (W1_v3 m ρ c)

theorem W2_v12 (c : Dev nD) : W2 m ρ c (Proc.devRef .tc main_v12) = invCol (dstOf (m ((c : Thread nD τ).loc main_arg1))) :=
  ((W2_arr m ρ c 2).trans (((dat0 (V1 m ρ) c).arrAt_in 2 rfl _).trans (A_eq0 (V1 m ρ) c 2))).trans (W1_v12 m ρ c)

theorem W2_arg5 (c : Dev nD) : W2 m ρ c (Proc.devRef .tc main_arg5) = (m ((c : Thread nD τ).loc main_arg5)) :=
  (W2_of_ne m ρ c main_arg5 (by decide)).trans (W1_arg5 m ρ c)

theorem W2_arg6 (c : Dev nD) : W2 m ρ c (Proc.devRef .tc main_arg6) = (m ((c : Thread nD τ).loc main_arg6)) :=
  (W2_of_ne m ρ c main_arg6 (by decide)).trans (W1_arg6 m ρ c)

theorem W2_arg7 (c : Dev nD) : W2 m ρ c (Proc.devRef .tc main_arg7) = (m ((c : Thread nD τ).loc main_arg7)) :=
  (W2_of_ne m ρ c main_arg7 (by decide)).trans (W1_arg7 m ρ c)

theorem W2_arg8 (c : Dev nD) : W2 m ρ c (Proc.devRef .tc main_arg8) = (m ((c : Thread nD τ).loc main_arg8)) :=
  (W2_of_ne m ρ c main_arg8 (by decide)).trans (W1_arg8 m ρ c)

theorem W2_arg9 (c : Dev nD) : W2 m ρ c (Proc.devRef .tc main_arg9) = (m ((c : Thread nD τ).loc main_arg9)) :=
  (W2_of_ne m ρ c main_arg9 (by decide)).trans (W1_arg9 m ρ c)

theorem W2_arg10 (c : Dev nD) : W2 m ρ c (Proc.devRef .tc main_arg10) = (m ((c : Thread nD τ).loc main_arg10)) :=
  (W2_of_ne m ρ c main_arg10 (by decide)).trans (W1_arg10 m ρ c)

/-! ## Before region 1: the neighbour sums of the first hidden features, the second layer's weights and bias -/

set_option maxHeartbeats 4000000 in
theorem W3_v37 (c : Dev nD) : W3 m ρ c (Proc.devRef .tc main_v37) = agg1 (F := Ideal) (h1 (m ((c : Thread nD τ).loc main_arg0)) (m ((c : Thread nD τ).loc main_arg1)) (m ((c : Thread nD τ).loc main_arg2)) (m ((c : Thread nD τ).loc main_arg3)) (m ((c : Thread nD τ).loc main_arg4))) (srcOf (m ((c : Thread nD τ).loc main_arg1))) (dstOf (m ((c : Thread nD τ).loc main_arg1))) := by
  show StableHlo.after hostOps1 (W2 m ρ c) (Proc.devRef .tc main_v37) = _
  after_results_simp <;> (rw [W2_v26, W2_v1, W2_v3]; rfl)

set_option maxHeartbeats 4000000 in
theorem W3_v26 (c : Dev nD) : W3 m ρ c (Proc.devRef .tc main_v26) = h1 (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v26) = _
  after_results_simp <;> (exact W2_v26 m ρ c)

set_option maxHeartbeats 4000000 in
theorem W3_v12 (c : Dev nD) : W3 m ρ c (Proc.devRef .tc main_v12) = invCol (dstOf (m ((c : Thread nD τ).loc main_arg1))) := by
  show StableHlo.after hostOps1 (W2 m ρ c) (Proc.devRef .tc main_v12) = _
  after_results_simp <;> (exact W2_v12 m ρ c)

set_option maxHeartbeats 4000000 in
theorem W3_v1 (c : Dev nD) : W3 m ρ c (Proc.devRef .tc main_v1) = srcOf (m ((c : Thread nD τ).loc main_arg1)) := by
  show StableHlo.after hostOps1 (W2 m ρ c) (Proc.devRef .tc main_v1) = _
  after_results_simp <;> (exact W2_v1 m ρ c)

set_option maxHeartbeats 4000000 in
theorem W3_v3 (c : Dev nD) : W3 m ρ c (Proc.devRef .tc main_v3) = dstOf (m ((c : Thread nD τ).loc main_arg1)) := by
  show StableHlo.after hostOps1 (W2 m ρ c) (Proc.devRef .tc main_v3) = _
  after_results_simp <;> (exact W2_v3 m ρ c)

set_option maxHeartbeats 4000000 in
theorem W3_v38 (c : Dev nD) : W3 m ρ c (Proc.devRef .tc main_v38) = transpose S256x48 [1, 0] (m ((c : Thread nD τ).loc main_arg5)) Facts₀.transposes_S48x256_S256x48_1_0 := by
  show StableHlo.after hostOps1 (W2 m ρ c) (Proc.devRef .tc main_v38) = _
  after_results_simp <;> (rw [W2_arg5])

set_option maxHeartbeats 4000000 in
theorem W3_v39 (c : Dev nD) : W3 m ρ c (Proc.devRef .tc main_v39) = transpose S256x48 [1, 0] (m ((c : Thread nD τ).loc main_arg6)) Facts₀.transposes_S48x256_S256x48_1_0 := by
  show StableHlo.after hostOps1 (W2 m ρ c) (Proc.devRef .tc main_v39) = _
  after_results_simp <;> (rw [W2_arg6])

set_option maxHeartbeats 4000000 in
theorem W3_v40 (c : Dev nD) : W3 m ρ c (Proc.devRef .tc main_v40) = shapeCast S1x48 (m ((c : Thread nD τ).loc main_arg7)) Facts₀.shapeCasts_S48_S1x48 := by
  show StableHlo.after hostOps1 (W2 m ρ c) (Proc.devRef .tc main_v40) = _
  after_results_simp <;> (rw [W2_arg7]; rfl)

set_option maxHeartbeats 4000000 in
theorem W3_arg8 (c : Dev nD) : W3 m ρ c (Proc.devRef .tc main_arg8) = (m ((c : Thread nD τ).loc main_arg8)) := by
  show StableHlo.after hostOps1 (W2 m ρ c) (Proc.devRef .tc main_arg8) = _
  after_results_simp <;> (exact W2_arg8 m ρ c)

set_option maxHeartbeats 4000000 in
theorem W3_arg9 (c : Dev nD) : W3 m ρ c (Proc.devRef .tc main_arg9) = (m ((c : Thread nD τ).loc main_arg9)) := by
  show StableHlo.after hostOps1 (W2 m ρ c) (Proc.devRef .tc main_arg9) = _
  after_results_simp <;> (exact W2_arg9 m ρ c)

set_option maxHeartbeats 4000000 in
theorem W3_arg10 (c : Dev nD) : W3 m ρ c (Proc.devRef .tc main_arg10) = (m ((c : Thread nD τ).loc main_arg10)) := by
  show StableHlo.after hostOps1 (W2 m ρ c) (Proc.devRef .tc main_arg10) = _
  after_results_simp <;> (exact W2_arg10 m ρ c)

/-! ## After region 1: the second hidden features -/

theorem W4_v41 (c : Dev nD) : W4 m ρ c (Proc.devRef .tc main_v41) = h2 (h1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7)) := by
  refine (W4_arr m ρ c 6).trans ((Block1.final (V3 m ρ) c).trans ?_)
  show linRelu 50000 256 48 (W3 m ρ c (Proc.devRef .tc main_v37)) (W3 m ρ c (Proc.devRef .tc main_v26))
    (W3 m ρ c (Proc.devRef .tc main_v12)) (W3 m ρ c (Proc.devRef .tc main_v38)) (W3 m ρ c (Proc.devRef .tc main_v39))
    (W3 m ρ c (Proc.devRef .tc main_v40)) = _
  rw [W3_v37, W3_v26, W3_v12, W3_v38, W3_v39, W3_v40]
  rfl

theorem W4_v1 (c : Dev nD) : W4 m ρ c (Proc.devRef .tc main_v1) = srcOf (m ((c : Thread nD τ).loc main_arg1)) :=
  (W4_of_ne m ρ c main_v1 (by decide)).trans (W3_v1 m ρ c)

theorem W4_v3 (c : Dev nD) : W4 m ρ c (Proc.devRef .tc main_v3) = dstOf (m ((c : Thread nD τ).loc main_arg1)) :=
  (W4_of_ne m ρ c main_v3 (by decide)).trans (W3_v3 m ρ c)

theorem W4_v12 (c : Dev nD) : W4 m ρ c (Proc.devRef .tc main_v12) = invCol (dstOf (m ((c : Thread nD τ).loc main_arg1))) :=
  ((W4_arr m ρ c 2).trans (((dat1 (V3 m ρ) c).arrAt_in 2 rfl _).trans (A_eq1 (V3 m ρ) c 2))).trans (W3_v12 m ρ c)

theorem W4_arg8 (c : Dev nD) : W4 m ρ c (Proc.devRef .tc main_arg8) = (m ((c : Thread nD τ).loc main_arg8)) :=
  (W4_of_ne m ρ c main_arg8 (by decide)).trans (W3_arg8 m ρ c)

theorem W4_arg9 (c : Dev nD) : W4 m ρ c (Proc.devRef .tc main_arg9) = (m ((c : Thread nD τ).loc main_arg9)) :=
  (W4_of_ne m ρ c main_arg9 (by decide)).trans (W3_arg9 m ρ c)

theorem W4_arg10 (c : Dev nD) : W4 m ρ c (Proc.devRef .tc main_arg10) = (m ((c : Thread nD τ).loc main_arg10)) :=
  (W4_of_ne m ρ c main_arg10 (by decide)).trans (W3_arg10 m ρ c)

/-! ## Before region 2: the neighbour sums of the second hidden features, the third layer's weights and bias -/

set_option maxHeartbeats 4000000 in
theorem W5_v52 (c : Dev nD) : W5 m ρ c (Proc.devRef .tc main_v52) = agg2 (F := Ideal) (h2 (h1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) (srcOf (m ((c : Thread nD τ).loc main_arg1))) (dstOf (m ((c : Thread nD τ).loc main_arg1))) := by
  show StableHlo.after hostOps2 (W4 m ρ c) (Proc.devRef .tc main_v52) = _
  after_results_simp <;> (rw [W4_v41, W4_v1, W4_v3]; rfl)

set_option maxHeartbeats 4000000 in
theorem W5_v41 (c : Dev nD) : W5 m ρ c (Proc.devRef .tc main_v41) = h2 (h1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7)) := by
  show StableHlo.after hostOps2 (W4 m ρ c) (Proc.devRef .tc main_v41) = _
  after_results_simp <;> (exact W4_v41 m ρ c)

set_option maxHeartbeats 4000000 in
theorem W5_v12 (c : Dev nD) : W5 m ρ c (Proc.devRef .tc main_v12) = invCol (dstOf (m ((c : Thread nD τ).loc main_arg1))) := by
  show StableHlo.after hostOps2 (W4 m ρ c) (Proc.devRef .tc main_v12) = _
  after_results_simp <;> (exact W4_v12 m ρ c)

set_option maxHeartbeats 4000000 in
theorem W5_v53 (c : Dev nD) : W5 m ρ c (Proc.devRef .tc main_v53) = transpose S48x128 [1, 0] (m ((c : Thread nD τ).loc main_arg8)) Facts₀.transposes_S128x48_S48x128_1_0 := by
  show StableHlo.after hostOps2 (W4 m ρ c) (Proc.devRef .tc main_v53) = _
  after_results_simp <;> (rw [W4_arg8])

set_option maxHeartbeats 4000000 in
theorem W5_v54 (c : Dev nD) : W5 m ρ c (Proc.devRef .tc main_v54) = transpose S48x128 [1, 0] (m ((c : Thread nD τ).loc main_arg9)) Facts₀.transposes_S128x48_S48x128_1_0 := by
  show StableHlo.after hostOps2 (W4 m ρ c) (Proc.devRef .tc main_v54) = _
  after_results_simp <;> (rw [W4_arg9])

set_option maxHeartbeats 4000000 in
theorem W5_v55 (c : Dev nD) : W5 m ρ c (Proc.devRef .tc main_v55) = shapeCast S1x128 (m ((c : Thread nD τ).loc main_arg10)) Facts₀.shapeCasts_S128_S1x128 := by
  show StableHlo.after hostOps2 (W4 m ρ c) (Proc.devRef .tc main_v55) = _
  after_results_simp <;> (rw [W4_arg10]; rfl)

/-! ## After region 2: the result -/

/-- The result buffer at the last boundary: the third layer of the second of the first, of the arguments. -/
theorem W6_v56 (c : Dev nD) : W6 m ρ c (Proc.devRef .tc main_v56) = h3 (h2 (h1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) (m ((c : Thread nD τ).loc main_arg1)) (m ((c : Thread nD τ).loc main_arg8)) (m ((c : Thread nD τ).loc main_arg9)) (m ((c : Thread nD τ).loc main_arg10)) := by
  refine (W6_arr m ρ c 6).trans ((Block2.final (V5 m ρ) c).trans ?_)
  show lin 50000 48 128 (W5 m ρ c (Proc.devRef .tc main_v52)) (W5 m ρ c (Proc.devRef .tc main_v41))
    (W5 m ρ c (Proc.devRef .tc main_v12)) (W5 m ρ c (Proc.devRef .tc main_v53)) (W5 m ρ c (Proc.devRef .tc main_v54))
    (W5 m ρ c (Proc.devRef .tc main_v55)) = _
  rw [W5_v52, W5_v41, W5_v12, W5_v53, W5_v54, W5_v55]
  rfl

end Cert.KernelIdeal.Fold

end
-- ==== Proof.RefLayer1.lean ====
/-
  The reference's layer 1, index by index.

  At node r and output feature q the reference divides row r of the neighbour sums by the node's clamped in-degree,
  multiplies by row q of the first weight matrix, adds the node's own row times row q of the second weight matrix and
  the bias, and rectifies.  Dividing by the clamped degree is scaling by its reciprocal (the degree is at least one),
  so this is the layer function of the reciprocal-degree column, the transposed weights and the bias row.
-/
import proofs.«175776_j39556648796479_2_alg».proof.Proof.Gen.ReferenceIdeal.Read
import proofs.«175776_j39556648796479_2_alg».proof.Proof.SageSpec
import Idealize.ShloMosaic.Lib.ValueIdx

noncomputable section

namespace Cert.ReferenceIdeal.Layer1

open Cert.ReferenceIdeal Cert.ReferenceIdeal.Read Idealize.ShloMosaic Idealize.ShloMosaic.ValueIdx Cert.Sage

variable (x0 : (⟨S50000x128, .f32⟩ : BufTy).Contents (Elt Ideal)) (x1 : (⟨S2x800000, .i32⟩ : BufTy).Contents (Elt Ideal)) (x2 x3 : (⟨S256x128, .f32⟩ : BufTy).Contents (Elt Ideal)) (x4 : (⟨S256, .f32⟩ : BufTy).Contents (Elt Ideal))

/-- The clamped in-degree of node r. -/
theorem deg_at (r : Fin 50000) :
    val_main_v19 (F := Ideal) x1 (ix1 r) = max (val_main_v17 (F := Ideal) x1 (ix1 r)) one32 := by
  rw [val_main_v19_apply, val_main_v18_apply, val_main_cst_3_apply]
  rfl

/-- The mean of the neighbours' rows at (r, k): the neighbour sum divided by the clamped in-degree. -/
theorem mean_at (r : Fin 50000) (k : Fin 128) :
    val_main_v22 (F := Ideal) x0 x1 (ix2 r k)
      = Ideal.div ((val_main_v13 (F := Ideal) x0 x1) (ix2 r k)) (max (val_main_v17 (F := Ideal) x1 (ix1 r)) one32) := by
  rw [val_main_v22_apply, val_main_v21_apply, val_main_v20_apply]
  have e : idx_main_v20 (idx_main_v21 (ix2 r k)) = ix1 r := funext fun a => Fin.ext (by
    match a with | ⟨0, _⟩ => rfl)
  rw [e, deg_at]
  rfl

/-- The neighbours' product at (r, q). -/
theorem first_at (r : Fin 50000) (q : Fin 256) :
    val_main_v24 (F := Ideal) x0 x1 x2 (ix2 r q)
      = ∑ k : Fin 128, val_main_v22 (F := Ideal) x0 x1 (ix2 r k) * x2 (ix2 q k) := by
  rw [val_main_v24_apply]
  refine Finset.sum_congr rfl fun k _ => ?_
  have e1 : lidx_main_v24 (ix2 r q) k = ix2 r k := funext fun a => Fin.ext (by
    match a with | ⟨0, _⟩ => rfl | ⟨1, _⟩ => rfl)
  have e2 : idx_main_v23 (ridx_main_v24 (ix2 r q) k) = ix2 q k := funext fun a => Fin.ext (by
    match a with | ⟨0, _⟩ => rfl | ⟨1, _⟩ => rfl)
  rw [val_main_v23_apply, e1, e2]

/-- The node's own product at (r, q). -/
theorem second_at (r : Fin 50000) (q : Fin 256) :
    val_main_v26 (F := Ideal) x0 x3 (ix2 r q)
      = ∑ k : Fin 128, x0 (ix2 r k) * x3 (ix2 q k) := by
  rw [val_main_v26_apply]
  refine Finset.sum_congr rfl fun k _ => ?_
  have e1 : lidx_main_v26 (ix2 r q) k = ix2 r k := funext fun a => Fin.ext (by
    match a with | ⟨0, _⟩ => rfl | ⟨1, _⟩ => rfl)
  have e2 : idx_main_v25 (ridx_main_v26 (ix2 r q) k) = ix2 q k := funext fun a => Fin.ext (by
    match a with | ⟨0, _⟩ => rfl | ⟨1, _⟩ => rfl)
  rw [val_main_v25_apply, e1, e2]

/-- The bias at (r, q). -/
theorem bias_at (r : Fin 50000) (q : Fin 256) :
    val_main_v29 (F := Ideal) x4 (ix2 r q) = x4 (ix1 q) := by
  rw [val_main_v29_apply, val_main_v28_apply]
  have e : idx_main_v28 (idx_main_v29 (ix2 r q)) = ix1 q := funext fun a => Fin.ext (by
    match a with | ⟨0, _⟩ => rfl)
  rw [e]

/-- The rectifier's zero at (r, q). -/
theorem zero_at (r : Fin 50000) (q : Fin 256) : val_main_call0_v0 (F := Ideal) (ix2 r q) = zero32 := by
  rw [val_main_call0_v0_apply, val_main_call0_cst_apply]
  rfl

/-- The layer: for a reciprocal-degree column, transposed weights and a bias row that read as the reference's degree,
    weights and bias, the layer function of the reference's neighbour sums and node features is the reference's stage. -/
theorem layer (inv : (⟨2, ![50000, 1]⟩ : Shape).Idx → EReal) (wl wr : (⟨2, ![128, 256]⟩ : Shape).Idx → EReal)
    (b : (⟨2, ![1, 256]⟩ : Shape).Idx → EReal)
    (hinv : ∀ r : Fin 50000, inv (ix2 r (0 : Fin 1)) = Ideal.div one32 (max (val_main_v17 (F := Ideal) x1 (ix1 r)) one32))
    (hwl : ∀ (k : Fin 128) (q : Fin 256), wl (ix2 k q) = x2 (ix2 q k))
    (hwr : ∀ (k : Fin 128) (q : Fin 256), wr (ix2 k q) = x3 (ix2 q k))
    (hb : ∀ q : Fin 256, b (ix2 (0 : Fin 1) q) = x4 (ix1 q)) :
    linRelu 50000 128 256 (val_main_v13 (F := Ideal) x0 x1) x0 inv wl wr b = val_main_v31 (F := Ideal) x0 x1 x2 x3 x4 := by
  funext i
  obtain ⟨r, q, rfl⟩ : ∃ (r : Fin 50000) (q : Fin 256), i = ix2 r q := ⟨i 0, i 1, eq_ix2 i⟩
  show max (lin 50000 128 256 _ _ _ _ _ _ (ix2 r q)) zero32 = _
  rw [lin_ix2, val_main_v31_apply, val_main_v30_apply, val_main_v27_apply, first_at, second_at, bias_at, zero_at, hb]
  show max _ zero32 = max _ zero32
  refine congrArg (fun z => max z zero32) ?_
  show _ + _ + _ = _ + _ + _
  refine congrArg (· + x4 (ix1 q)) ?_
  refine congrArg₂ (· + ·) (Finset.sum_congr rfl fun k _ => ?_) (Finset.sum_congr rfl fun k _ => ?_)
  · rw [mean_at, hinv, hwl, mul_recip_eq_div]
  · rw [hwr]

end Cert.ReferenceIdeal.Layer1

end
-- ==== Proof.RefLayer2.lean ====
/-
  The reference's layer 2, index by index.

  At node r and output feature q the reference divides row r of the neighbour sums by the node's clamped in-degree,
  multiplies by row q of the first weight matrix, adds the node's own row times row q of the second weight matrix and
  the bias, and rectifies.  Dividing by the clamped degree is scaling by its reciprocal (the degree is at least one),
  so this is the layer function of the reciprocal-degree column, the transposed weights and the bias row.
-/
import proofs.«175776_j39556648796479_2_alg».proof.Proof.Gen.ReferenceIdeal.Read
import proofs.«175776_j39556648796479_2_alg».proof.Proof.SageSpec
import Idealize.ShloMosaic.Lib.ValueIdx

noncomputable section

namespace Cert.ReferenceIdeal.Layer2

open Cert.ReferenceIdeal Cert.ReferenceIdeal.Read Idealize.ShloMosaic Idealize.ShloMosaic.ValueIdx Cert.Sage

variable (x0 : (⟨S50000x128, .f32⟩ : BufTy).Contents (Elt Ideal)) (x1 : (⟨S2x800000, .i32⟩ : BufTy).Contents (Elt Ideal)) (x2 x3 : (⟨S256x128, .f32⟩ : BufTy).Contents (Elt Ideal)) (x4 : (⟨S256, .f32⟩ : BufTy).Contents (Elt Ideal)) (x5 x6 : (⟨S48x256, .f32⟩ : BufTy).Contents (Elt Ideal)) (x7 : (⟨S48, .f32⟩ : BufTy).Contents (Elt Ideal))

/-- The clamped in-degree of node r. -/
theorem deg_at (r : Fin 50000) :
    val_main_v47 (F := Ideal) x1 (ix1 r) = max (val_main_v45 (F := Ideal) x1 (ix1 r)) one32 := by
  rw [val_main_v47_apply, val_main_v46_apply, val_main_cst_9_apply]
  rfl

/-- The mean of the neighbours' rows at (r, k): the neighbour sum divided by the clamped in-degree. -/
theorem mean_at (r : Fin 50000) (k : Fin 256) :
    val_main_v50 (F := Ideal) x0 x1 x2 x3 x4 (ix2 r k)
      = Ideal.div ((val_main_v41 (F := Ideal) x0 x1 x2 x3 x4) (ix2 r k)) (max (val_main_v45 (F := Ideal) x1 (ix1 r)) one32) := by
  rw [val_main_v50_apply, val_main_v49_apply, val_main_v48_apply]
  have e : idx_main_v48 (idx_main_v49 (ix2 r k)) = ix1 r := funext fun a => Fin.ext (by
    match a with | ⟨0, _⟩ => rfl)
  rw [e, deg_at]
  rfl

/-- The neighbours' product at (r, q). -/
theorem first_at (r : Fin 50000) (q : Fin 48) :
    val_main_v52 (F := Ideal) x0 x1 x2 x3 x4 x5 (ix2 r q)
      = ∑ k : Fin 256, val_main_v50 (F := Ideal) x0 x1 x2 x3 x4 (ix2 r k) * x5 (ix2 q k) := by
  rw [val_main_v52_apply]
  refine Finset.sum_congr rfl fun k _ => ?_
  have e1 : lidx_main_v52 (ix2 r q) k = ix2 r k := funext fun a => Fin.ext (by
    match a with | ⟨0, _⟩ => rfl | ⟨1, _⟩ => rfl)
  have e2 : idx_main_v51 (ridx_main_v52 (ix2 r q) k) = ix2 q k := funext fun a => Fin.ext (by
    match a with | ⟨0, _⟩ => rfl | ⟨1, _⟩ => rfl)
  rw [val_main_v51_apply, e1, e2]

/-- The node's own product at (r, q). -/
theorem second_at (r : Fin 50000) (q : Fin 48) :
    val_main_v54 (F := Ideal) x0 x1 x2 x3 x4 x6 (ix2 r q)
      = ∑ k : Fin 256, (val_main_v31 (F := Ideal) x0 x1 x2 x3 x4) (ix2 r k) * x6 (ix2 q k) := by
  rw [val_main_v54_apply]
  refine Finset.sum_congr rfl fun k _ => ?_
  have e1 : lidx_main_v54 (ix2 r q) k = ix2 r k := funext fun a => Fin.ext (by
    match a with | ⟨0, _⟩ => rfl | ⟨1, _⟩ => rfl)
  have e2 : idx_main_v53 (ridx_main_v54 (ix2 r q) k) = ix2 q k := funext fun a => Fin.ext (by
    match a with | ⟨0, _⟩ => rfl | ⟨1, _⟩ => rfl)
  rw [val_main_v53_apply, e1, e2]

/-- The bias at (r, q). -/
theorem bias_at (r : Fin 50000) (q : Fin 48) :
    val_main_v57 (F := Ideal) x7 (ix2 r q) = x7 (ix1 q) := by
  rw [val_main_v57_apply, val_main_v56_apply]
  have e : idx_main_v56 (idx_main_v57 (ix2 r q)) = ix1 q := funext fun a => Fin.ext (by
    match a with | ⟨0, _⟩ => rfl)
  rw [e]

/-- The rectifier's zero at (r, q). -/
theorem zero_at (r : Fin 50000) (q : Fin 48) : val_main_call1_v0 (F := Ideal) (ix2 r q) = zero32 := by
  rw [val_main_call1_v0_apply, val_main_call1_cst_apply]
  rfl

/-- The layer: for a reciprocal-degree column, transposed weights and a bias row that read as the reference's degree,
    weights and bias, the layer function of the reference's neighbour sums and node features is the reference's stage. -/
theorem layer (inv : (⟨2, ![50000, 1]⟩ : Shape).Idx → EReal) (wl wr : (⟨2, ![256, 48]⟩ : Shape).Idx → EReal)
    (b : (⟨2, ![1, 48]⟩ : Shape).Idx → EReal)
    (hinv : ∀ r : Fin 50000, inv (ix2 r (0 : Fin 1)) = Ideal.div one32 (max (val_main_v45 (F := Ideal) x1 (ix1 r)) one32))
    (hwl : ∀ (k : Fin 256) (q : Fin 48), wl (ix2 k q) = x5 (ix2 q k))
    (hwr : ∀ (k : Fin 256) (q : Fin 48), wr (ix2 k q) = x6 (ix2 q k))
    (hb : ∀ q : Fin 48, b (ix2 (0 : Fin 1) q) = x7 (ix1 q)) :
    linRelu 50000 256 48 (val_main_v41 (F := Ideal) x0 x1 x2 x3 x4) (val_main_v31 (F := Ideal) x0 x1 x2 x3 x4) inv wl wr b = val_main_v59 (F := Ideal) x0 x1 x2 x3 x4 x5 x6 x7 := by
  funext i
  obtain ⟨r, q, rfl⟩ : ∃ (r : Fin 50000) (q : Fin 48), i = ix2 r q := ⟨i 0, i 1, eq_ix2 i⟩
  show max (lin 50000 256 48 _ _ _ _ _ _ (ix2 r q)) zero32 = _
  rw [lin_ix2, val_main_v59_apply, val_main_v58_apply, val_main_v55_apply, first_at, second_at, bias_at, zero_at, hb]
  show max _ zero32 = max _ zero32
  refine congrArg (fun z => max z zero32) ?_
  show _ + _ + _ = _ + _ + _
  refine congrArg (· + x7 (ix1 q)) ?_
  refine congrArg₂ (· + ·) (Finset.sum_congr rfl fun k _ => ?_) (Finset.sum_congr rfl fun k _ => ?_)
  · rw [mean_at, hinv, hwl, mul_recip_eq_div]
  · rw [hwr]

end Cert.ReferenceIdeal.Layer2

end
-- ==== Proof.RefLayer3.lean ====
/-
  The reference's layer 3, index by index.

  At node r and output feature q the reference divides row r of the neighbour sums by the node's clamped in-degree,
  multiplies by row q of the first weight matrix, adds the node's own row times row q of the second weight matrix and
  the bias.  Dividing by the clamped degree is scaling by its reciprocal (the degree is at least one),
  so this is the layer function of the reciprocal-degree column, the transposed weights and the bias row.
-/
import proofs.«175776_j39556648796479_2_alg».proof.Proof.Gen.ReferenceIdeal.Read
import proofs.«175776_j39556648796479_2_alg».proof.Proof.SageSpec
import Idealize.ShloMosaic.Lib.ValueIdx

noncomputable section

namespace Cert.ReferenceIdeal.Layer3

open Cert.ReferenceIdeal Cert.ReferenceIdeal.Read Idealize.ShloMosaic Idealize.ShloMosaic.ValueIdx Cert.Sage

variable (x0 : (⟨S50000x128, .f32⟩ : BufTy).Contents (Elt Ideal)) (x1 : (⟨S2x800000, .i32⟩ : BufTy).Contents (Elt Ideal)) (x2 x3 : (⟨S256x128, .f32⟩ : BufTy).Contents (Elt Ideal)) (x4 : (⟨S256, .f32⟩ : BufTy).Contents (Elt Ideal)) (x5 x6 : (⟨S48x256, .f32⟩ : BufTy).Contents (Elt Ideal)) (x7 : (⟨S48, .f32⟩ : BufTy).Contents (Elt Ideal)) (x8 x9 : (⟨S128x48, .f32⟩ : BufTy).Contents (Elt Ideal)) (x10 : (⟨S128, .f32⟩ : BufTy).Contents (Elt Ideal))

/-- The clamped in-degree of node r. -/
theorem deg_at (r : Fin 50000) :
    val_main_v75 (F := Ideal) x1 (ix1 r) = max (val_main_v73 (F := Ideal) x1 (ix1 r)) one32 := by
  rw [val_main_v75_apply, val_main_v74_apply, val_main_cst_15_apply]
  rfl

/-- The mean of the neighbours' rows at (r, k): the neighbour sum divided by the clamped in-degree. -/
theorem mean_at (r : Fin 50000) (k : Fin 48) :
    val_main_v78 (F := Ideal) x0 x1 x2 x3 x4 x5 x6 x7 (ix2 r k)
      = Ideal.div ((val_main_v69 (F := Ideal) x0 x1 x2 x3 x4 x5 x6 x7) (ix2 r k)) (max (val_main_v73 (F := Ideal) x1 (ix1 r)) one32) := by
  rw [val_main_v78_apply, val_main_v77_apply, val_main_v76_apply]
  have e : idx_main_v76 (idx_main_v77 (ix2 r k)) = ix1 r := funext fun a => Fin.ext (by
    match a with | ⟨0, _⟩ => rfl)
  rw [e, deg_at]
  rfl

/-- The neighbours' product at (r, q). -/
theorem first_at (r : Fin 50000) (q : Fin 128) :
    val_main_v80 (F := Ideal) x0 x1 x2 x3 x4 x5 x6 x7 x8 (ix2 r q)
      = ∑ k : Fin 48, val_main_v78 (F := Ideal) x0 x1 x2 x3 x4 x5 x6 x7 (ix2 r k) * x8 (ix2 q k) := by
  rw [val_main_v80_apply]
  refine Finset.sum_congr rfl fun k _ => ?_
  have e1 : lidx_main_v80 (ix2 r q) k = ix2 r k := funext fun a => Fin.ext (by
    match a with | ⟨0, _⟩ => rfl | ⟨1, _⟩ => rfl)
  have e2 : idx_main_v79 (ridx_main_v80 (ix2 r q) k) = ix2 q k := funext fun a => Fin.ext (by
    match a with | ⟨0, _⟩ => rfl | ⟨1, _⟩ => rfl)
  rw [val_main_v79_apply, e1, e2]

/-- The node's own product at (r, q). -/
theorem second_at (r : Fin 50000) (q : Fin 128) :
    val_main_v82 (F := Ideal) x0 x1 x2 x3 x4 x5 x6 x7 x9 (ix2 r q)
      = ∑ k : Fin 48, (val_main_v59 (F := Ideal) x0 x1 x2 x3 x4 x5 x6 x7) (ix2 r k) * x9 (ix2 q k) := by
  rw [val_main_v82_apply]
  refine Finset.sum_congr rfl fun k _ => ?_
  have e1 : lidx_main_v82 (ix2 r q) k = ix2 r k := funext fun a => Fin.ext (by
    match a with | ⟨0, _⟩ => rfl | ⟨1, _⟩ => rfl)
  have e2 : idx_main_v81 (ridx_main_v82 (ix2 r q) k) = ix2 q k := funext fun a => Fin.ext (by
    match a with | ⟨0, _⟩ => rfl | ⟨1, _⟩ => rfl)
  rw [val_main_v81_apply, e1, e2]

/-- The bias at (r, q). -/
theorem bias_at (r : Fin 50000) (q : Fin 128) :
    val_main_v85 (F := Ideal) x10 (ix2 r q) = x10 (ix1 q) := by
  rw [val_main_v85_apply, val_main_v84_apply]
  have e : idx_main_v84 (idx_main_v85 (ix2 r q)) = ix1 q := funext fun a => Fin.ext (by
    match a with | ⟨0, _⟩ => rfl)
  rw [e]

/-- The layer: for a reciprocal-degree column, transposed weights and a bias row that read as the reference's degree,
    weights and bias, the layer function of the reference's neighbour sums and node features is the reference's stage. -/
theorem layer (inv : (⟨2, ![50000, 1]⟩ : Shape).Idx → EReal) (wl wr : (⟨2, ![48, 128]⟩ : Shape).Idx → EReal)
    (b : (⟨2, ![1, 128]⟩ : Shape).Idx → EReal)
    (hinv : ∀ r : Fin 50000, inv (ix2 r (0 : Fin 1)) = Ideal.div one32 (max (val_main_v73 (F := Ideal) x1 (ix1 r)) one32))
    (hwl : ∀ (k : Fin 48) (q : Fin 128), wl (ix2 k q) = x8 (ix2 q k))
    (hwr : ∀ (k : Fin 48) (q : Fin 128), wr (ix2 k q) = x9 (ix2 q k))
    (hb : ∀ q : Fin 128, b (ix2 (0 : Fin 1) q) = x10 (ix1 q)) :
    lin 50000 48 128 (val_main_v69 (F := Ideal) x0 x1 x2 x3 x4 x5 x6 x7) (val_main_v59 (F := Ideal) x0 x1 x2 x3 x4 x5 x6 x7) inv wl wr b = val_main_v86 (F := Ideal) x0 x1 x2 x3 x4 x5 x6 x7 x8 x9 x10 := by
  funext i
  obtain ⟨r, q, rfl⟩ : ∃ (r : Fin 50000) (q : Fin 128), i = ix2 r q := ⟨i 0, i 1, eq_ix2 i⟩
  rw [lin_ix2, val_main_v86_apply, val_main_v83_apply, first_at, second_at, bias_at, hb]
  show _ + _ + _ = _ + _ + _
  refine congrArg (· + x10 (ix1 q)) ?_
  refine congrArg₂ (· + ·) (Finset.sum_congr rfl fun k _ => ?_) (Finset.sum_congr rfl fun k _ => ?_)
  · rw [mean_at, hinv, hwl, mul_recip_eq_div]
  · rw [hwr]

end Cert.ReferenceIdeal.Layer3

end
-- ==== Proof.Agree.lean ====
/-
  The two programs compute one function.

  Both gather the source nodes' rows and sum them into the destination nodes with the same host operations, and both
  count the in-degrees the same way, so their neighbour sums and clamped degrees are the same arrays.  On those, one
  program's layer scales by the reciprocal degree and the other divides by the degree: the same extended real at every
  index (SageSpec, RefLayer1-3).  A change of float format between the layers is the identity.  Layer by layer the
  idealized kernel's features are the reference's.
-/
import proofs.«175776_j39556648796479_2_alg».proof.Proof.KLayers
import proofs.«175776_j39556648796479_2_alg».proof.Proof.RefLayer1
import proofs.«175776_j39556648796479_2_alg».proof.Proof.RefLayer2
import proofs.«175776_j39556648796479_2_alg».proof.Proof.RefLayer3
import proofs.«175776_j39556648796479_2_alg».proof.Proof.LibLayout
import Idealize.ShloMosaic.Lib.ValueLayout

noncomputable section

namespace Cert.Agree

open Idealize.ShloMosaic Idealize.ShloMosaic.ValueIdx Cert.Sage Cert.Layout
open Cert.KernelIdeal.Ops
open Cert.ReferenceIdeal.Read

variable (x0 : (⟨Cert.ReferenceIdeal.S50000x128, .f32⟩ : BufTy).Contents (Elt Ideal)) (x1 : (⟨Cert.ReferenceIdeal.S2x800000, .i32⟩ : BufTy).Contents (Elt Ideal))
  (x2 x3 : (⟨Cert.ReferenceIdeal.S256x128, .f32⟩ : BufTy).Contents (Elt Ideal)) (x4 : (⟨Cert.ReferenceIdeal.S256, .f32⟩ : BufTy).Contents (Elt Ideal))
  (x5 x6 : (⟨Cert.ReferenceIdeal.S48x256, .f32⟩ : BufTy).Contents (Elt Ideal)) (x7 : (⟨Cert.ReferenceIdeal.S48, .f32⟩ : BufTy).Contents (Elt Ideal))
  (x8 x9 : (⟨Cert.ReferenceIdeal.S128x48, .f32⟩ : BufTy).Contents (Elt Ideal)) (x10 : (⟨Cert.ReferenceIdeal.S128, .f32⟩ : BufTy).Contents (Elt Ideal))

/-- A widening of the float format is the identity on extended reals. -/
theorem extf_id {s : Shape} {φ ψ : FTy} (a : FVec Ideal s φ) (h : φ.bits < ψ.bits) : (extf ψ a h : FVec Ideal s ψ) = a := rfl

/-! ## The clamped in-degree and its reciprocal -/

theorem deg_eq : deg (F := Ideal) (dstOf x1) = val_main_v19 (F := Ideal) x1 := rfl

/-- The host's quotient at an index. -/
theorem hostDivf_at {s : Shape} {φ : FTy} (a b : FVec Ideal s φ) (i : s.Idx) : Host.divf a b i = Ideal.div (a i) (b i) := rfl

/-- A splat of a scalar constant over the nodes reads the constant's word everywhere. -/
theorem ones_at (i : Cert.KernelIdeal.S50000.Idx) :
    broadcastInDim Cert.KernelIdeal.S50000 ![] Cert.KernelIdeal.Facts₀.bcast_S_S50000 (constant (F := Ideal) Cert.KernelIdeal.S_ .f32 0x3F800000#32) i = one32 :=
  (broadcastInDim_apply _ Cert.KernelIdeal.Facts₀.bcast_S_S50000 _ i (fun a => a.elim0) (fun a => a.elim0)).trans rfl

/-- The reciprocal-degree column at node r. -/
theorem inv_at1 (r : Fin 50000) :
    invCol (F := Ideal) (dstOf x1) (ix2 r (0 : Fin 1)) = Ideal.div one32 (max (val_main_v17 (F := Ideal) x1 (ix1 r)) one32) := by
  unfold invCol
  rw [shapeCast_a_a1_apply, deg_eq, hostDivf_at, ones_at, Cert.ReferenceIdeal.Layer1.deg_at]

theorem inv_at2 (r : Fin 50000) :
    invCol (F := Ideal) (dstOf x1) (ix2 r (0 : Fin 1)) = Ideal.div one32 (max (val_main_v45 (F := Ideal) x1 (ix1 r)) one32) :=
  inv_at1 x1 r

theorem inv_at3 (r : Fin 50000) :
    invCol (F := Ideal) (dstOf x1) (ix2 r (0 : Fin 1)) = Ideal.div one32 (max (val_main_v73 (F := Ideal) x1 (ix1 r)) one32) :=
  inv_at1 x1 r

/-! ## Layer 1 -/

theorem agg0_eq : agg0 (F := Ideal) x0 (srcOf x1) (dstOf x1) = val_main_v13 (F := Ideal) x0 x1 := rfl

theorem h1_eq : h1 x0 x1 x2 x3 x4 = val_main_v31 (F := Ideal) x0 x1 x2 x3 x4 := by
  unfold h1
  rw [agg0_eq]
  exact Cert.ReferenceIdeal.Layer1.layer x0 x1 x2 x3 x4 _ _ _ _ (inv_at1 x1)
    (fun k q => transpose_ix2_apply x2 _ k q) (fun k q => transpose_ix2_apply x3 _ k q)
    (fun q => shapeCast_a_1a_apply x4 _ 0 q)

/-! ## Layer 2 -/

theorem agg1_eq : agg1 (F := Ideal) (val_main_v31 (F := Ideal) x0 x1 x2 x3 x4) (srcOf x1) (dstOf x1)
    = val_main_v41 (F := Ideal) x0 x1 x2 x3 x4 := by
  unfold agg1
  rw [extf_id]
  rfl

theorem h2_eq : h2 (val_main_v31 (F := Ideal) x0 x1 x2 x3 x4) x1 x5 x6 x7 = val_main_v59 (F := Ideal) x0 x1 x2 x3 x4 x5 x6 x7 := by
  unfold h2
  rw [agg1_eq]
  exact Cert.ReferenceIdeal.Layer2.layer x0 x1 x2 x3 x4 x5 x6 x7 _ _ _ _ (inv_at2 x1)
    (fun k q => transpose_ix2_apply x5 _ k q) (fun k q => transpose_ix2_apply x6 _ k q)
    (fun q => shapeCast_a_1a_apply x7 _ 0 q)

/-! ## Layer 3 -/

theorem agg2_eq : agg2 (F := Ideal) (val_main_v59 (F := Ideal) x0 x1 x2 x3 x4 x5 x6 x7) (srcOf x1) (dstOf x1)
    = val_main_v69 (F := Ideal) x0 x1 x2 x3 x4 x5 x6 x7 := by
  unfold agg2
  rw [extf_id]
  rfl

theorem h3_eq : h3 (val_main_v59 (F := Ideal) x0 x1 x2 x3 x4 x5 x6 x7) x1 x8 x9 x10
    = val_main_v86 (F := Ideal) x0 x1 x2 x3 x4 x5 x6 x7 x8 x9 x10 := by
  unfold h3
  rw [agg2_eq]
  exact Cert.ReferenceIdeal.Layer3.layer x0 x1 x2 x3 x4 x5 x6 x7 x8 x9 x10 _ _ _ _ (inv_at3 x1)
    (fun k q => transpose_ix2_apply x8 _ k q) (fun k q => transpose_ix2_apply x9 _ k q)
    (fun q => shapeCast_a_1a_apply x10 _ 0 q)

/-- The idealized kernel's result, as a function of the arguments, is the reference's. -/
theorem result_eq : h3 (h2 (h1 x0 x1 x2 x3 x4) x1 x5 x6 x7) x1 x8 x9 x10
    = val_main_v86 (F := Ideal) x0 x1 x2 x3 x4 x5 x6 x7 x8 x9 x10 := by
  rw [h1_eq, h2_eq, h3_eq]

end Cert.Agree

end
-- ==== Proof.lean ====
/-
  A three-layer GraphSAGE network: the idealized kernel against the reference, over the extended reals.

  Each layer takes the node features h, sums the source nodes' rows into their destination nodes (agg), and returns
      relu?( (agg / max(deg, 1)) · Wlᵀ + h · Wrᵀ + b ).
  The kernel's program computes the neighbour sums and the reciprocal 1 / max(deg, 1) with host operations and does the
  rest of each layer in a pipelined region over 25 blocks of 2000 nodes, scaling the neighbour sums by the reciprocal;
  the reference divides by the clamped degree.  On the extended reals x / y = x · y⁻¹ for y ≠ 0 and max(deg, 1) ≥ 1,
  so the two layers are one function of the same arrays at every index, with no appeal to finiteness; a change of float
  format is the identity, and a block product into a zero accumulator is the plain sum over the contracted axis.
  The ideal pass rewrote nothing, so the kernel's idealization is its own text read over the extended reals.
-/
import proofs.«175776_j39556648796479_2_alg».proof.Defs
import proofs.«175776_j39556648796479_2_alg».proof.Proof.Gen.Kernel
import proofs.«175776_j39556648796479_2_alg».proof.Proof.Gen.Kernel.Skeleton
import proofs.«175776_j39556648796479_2_alg».proof.Proof.Gen.Kernel.Launch
import proofs.«175776_j39556648796479_2_alg».proof.Proof.Gen.Kernel.Points
import proofs.«175776_j39556648796479_2_alg».proof.Proof.Gen.Kernel.Frame
import proofs.«175776_j39556648796479_2_alg».proof.Proof.Gen.KernelIdeal
import proofs.«175776_j39556648796479_2_alg».proof.Proof.Gen.KernelIdeal.Skeleton
import proofs.«175776_j39556648796479_2_alg».proof.Proof.Gen.KernelIdeal.Launch
import proofs.«175776_j39556648796479_2_alg».proof.Proof.Gen.KernelIdeal.Points
import proofs.«175776_j39556648796479_2_alg».proof.Proof.Gen.KernelIdeal.Frame
import proofs.«175776_j39556648796479_2_alg».proof.Proof.Gen.ReferenceIdeal
import proofs.«175776_j39556648796479_2_alg».proof.Proof.Gen.Pre_finite_inputs
import proofs.«175776_j39556648796479_2_alg».proof.Proof.Gen.ReferenceIdeal.Run
import proofs.«175776_j39556648796479_2_alg».proof.Proof.Gen.ReferenceIdeal.Read
import proofs.«175776_j39556648796479_2_alg».proof.Proof.KernelRun
import proofs.«175776_j39556648796479_2_alg».proof.Proof.Fold
import proofs.«175776_j39556648796479_2_alg».proof.Proof.Agree
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the same array: the kernel's result buffer holds the
    third layer of the second of the first, of the arguments; the reference's holds its composed term, which is that
    same function index by index. -/
theorem algebraic : Cert.algebraic_KernelIdeal_ReferenceIdeal := by
  intro m ρ m' ρ' _ hagree
  refine ⟨fun c => Cert.KernelIdeal.Gen.W6 m ρ c (Proc.devRef .tc Cert.KernelIdeal.main_v56),
    Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  show Cert.ReferenceIdeal.Value.res_main_v86 m' c = Cert.KernelIdeal.Gen.W6 m ρ c (Proc.devRef .tc Cert.KernelIdeal.main_v56)
  rw [Cert.ReferenceIdeal.Read.val_main_v86_eq, Cert.KernelIdeal.Fold.W6_v56, h0, h1, h2, h3, h4, h5, h6, h7, h8, h9, h10]
  exact (Cert.Agree.result_eq _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
